-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S1433x700 : Shape := ⟨2, ![1433, 700]⟩
abbrev S700 : Shape := ⟨1, ![700]⟩
abbrev S700x400 : Shape := ⟨2, ![700, 400]⟩
abbrev S400 : Shape := ⟨1, ![400]⟩
abbrev S400x100 : Shape := ⟨2, ![400, 100]⟩
abbrev S100 : Shape := ⟨1, ![100]⟩
abbrev S100x16 : Shape := ⟨2, ![100, 16]⟩
abbrev S16 : Shape := ⟨1, ![16]⟩
abbrev S200000 : Shape := ⟨1, ![200000]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x700 : S_.BroadcastsInDim S1433x700 (![] : Fin 0 → Fin S1433x700.rank)
  reducesTo_S1433x700_S_d0_1 : S1433x700.ReducesTo [0, 1] S_
  bcast_S_S700 : S_.BroadcastsInDim S700 (![] : Fin 0 → Fin S700.rank)
  reducesTo_S700_S_d0 : S700.ReducesTo [0] S_
  bcast_S_S700x400 : S_.BroadcastsInDim S700x400 (![] : Fin 0 → Fin S700x400.rank)
  reducesTo_S700x400_S_d0_1 : S700x400.ReducesTo [0, 1] S_
  bcast_S_S400 : S_.BroadcastsInDim S400 (![] : Fin 0 → Fin S400.rank)
  reducesTo_S400_S_d0 : S400.ReducesTo [0] S_
  bcast_S_S400x100 : S_.BroadcastsInDim S400x100 (![] : Fin 0 → Fin S400x100.rank)
  reducesTo_S400x100_S_d0_1 : S400x100.ReducesTo [0, 1] S_
  bcast_S_S100 : S_.BroadcastsInDim S100 (![] : Fin 0 → Fin S100.rank)
  reducesTo_S100_S_d0 : S100.ReducesTo [0] S_
  bcast_S_S100x16 : S_.BroadcastsInDim S100x16 (![] : Fin 0 → Fin S100x16.rank)
  reducesTo_S100x16_S_d0_1 : S100x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S100x16 .f32) (main_arg8 : FVec F S16 .f32) (main_v33 : IVec S_ 1) : IVec S_ 1 :=
  let main_v34 : FVec F S100x16 .f32 := Host.absf main_arg7
  let main_cst_12 : FVec F S_ .f32 := constant S_ .f32 0x7F800000#32
  let main_v35 : FVec F S100x16 .f32 := broadcastInDim S100x16 ![] bcast_S_S100x16 main_cst_12
  let main_v36 : IVec S100x16 1 := cmpf .olt main_v34 main_v35
  let main_c_13 : IVec S_ 1 := constantI S_ 1 1#1
  let main_v37 : IVec S_ 1 := (fun x v => Host.reduce IntOp.andi x v reducesTo_S100x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S400 .f32) (main_arg5 : FVec F S400x100 .f32) (main_arg6 : FVec F S100 .f32) (main_arg7 : FVec F S100x16 .f32) (main_arg8 : FVec F S16 .f32) (main_v13 : IVec S_ 1) (main_v16 : IVec S700x400 1) : IVec S_ 1 :=
  let main_c_5 : IVec S_ 1 := constantI S_ 1 1#1
  let main_v17 : IVec S_ 1 := (fun x v => Host.reduce IntOp.andi x v reducesTo_S700x400_S_d0_1 h_S_) main_v16 main_c_5
  let main_v18 : IVec S_ 1 := andi main_v13 main_v17
  let main_v19 : FVec F S400 .f32 := Host.absf main_arg4
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x100 .f32 := Host.absf main_arg5
  let main_cst_8 : FVec F S_ .f32 := constant S_ .f32 0x7F800000#32
  let main_v25 : FVec F S400x100 .f32 := broadcastInDim S400x100 ![] bcast_S_S400x100 main_cst_8
  let main_v26 : IVec S400x100 1 := cmpf .olt main_v24 main_v25
  let main_c_9 : IVec S_ 1 := constantI S_ 1 1#1
  let main_v27 : IVec S_ 1 := (fun x v => Host.reduce IntOp.andi x v reducesTo_S400x100_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_v33

def fn {F : FTy → Type} [FloatOps F] (main_arg0 : FVec F S50000x1433 .f32) (main_arg1 : FVec F S1433x700 .f32) (main_arg2 : FVec F S700 .f32) (main_arg3 : FVec F S700x400 .f32) (main_arg4 : FVec F S400 .f32) (main_arg5 : FVec F S400x100 .f32) (main_arg6 : FVec F S100 .f32) (main_arg7 : FVec F S100x16 .f32) (main_arg8 : FVec F S16 .f32) (main_arg9 : IVec S200000 32) (main_arg10 : IVec S200000 32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x700 .f32 := Host.absf main_arg1
  let main_cst_0 : FVec F S_ .f32 := constant S_ .f32 0x7F800000#32
  let main_v5 : FVec F S1433x700 .f32 := broadcastInDim S1433x700 ![] bcast_S_S1433x700 main_cst_0
  let main_v6 : IVec S1433x700 1 := cmpf .olt main_v4 main_v5
  let main_c_1 : IVec S_ 1 := constantI S_ 1 1#1
  let main_v7 : IVec S_ 1 := (fun x v => Host.reduce IntOp.andi x v reducesTo_S1433x700_S_d0_1 h_S_) main_v6 main_c_1
  let main_v8 : IVec S_ 1 := andi main_v3 main_v7
  let main_v9 : FVec F S700 .f32 := Host.absf main_arg2
  let main_cst_2 : FVec F S_ .f32 := constant S_ .f32 0x7F800000#32
  let main_v10 : FVec F S700 .f32 := broadcastInDim S700 ![] bcast_S_S700 main_cst_2
  let main_v11 : IVec S700 1 := cmpf .olt main_v9 main_v10
  let main_c_3 : IVec S_ 1 := constantI S_ 1 1#1
  let main_v12 : IVec S_ 1 := (fun x v => Host.reduce IntOp.andi x v reducesTo_S700_S_d0 h_S_) main_v11 main_c_3
  let main_v13 : IVec S_ 1 := andi main_v8 main_v12
  let main_v14 : FVec F S700x400 .f32 := Host.absf main_arg3
  let main_cst_4 : FVec F S_ .f32 := constant S_ .f32 0x7F800000#32
  let main_v15 : FVec F S700x400 .f32 := broadcastInDim S700x400 ![] bcast_S_S700x400 main_cst_4
  let main_v16 : IVec S700x400 1 := cmpf .olt main_v14 main_v15
  fn_part1 (F := F) main_arg4 main_arg5 main_arg6 main_arg7 main_arg8 main_v13 main_v16
-- ==== Kernel.lean ====
abbrev S50000x1433 : Shape := ⟨2, ![50000, 1433]⟩
abbrev S1433x700 : Shape := ⟨2, ![1433, 700]⟩
abbrev S700 : Shape := ⟨1, ![700]⟩
abbrev S700x400 : Shape := ⟨2, ![700, 400]⟩
abbrev S400 : Shape := ⟨1, ![400]⟩
abbrev S400x100 : Shape := ⟨2, ![400, 100]⟩
abbrev S100 : Shape := ⟨1, ![100]⟩
abbrev S100x16 : Shape := ⟨2, ![100, 16]⟩
abbrev S16 : Shape := ⟨1, ![16]⟩
abbrev S200000 : Shape := ⟨1, ![200000]⟩
abbrev S1x700 : Shape := ⟨2, ![1, 700]⟩
abbrev S50000x700 : Shape := ⟨2, ![50000, 700]⟩
abbrev S1000x1433 : Shape := ⟨2, ![1000, 1433]⟩
abbrev S1000x700 : Shape := ⟨2, ![1000, 700]⟩
abbrev S_ : Shape := ⟨0, ![]⟩
abbrev S200000x1 : Shape := ⟨2, ![200000, 1]⟩
abbrev S200000x700 : Shape := ⟨2, ![200000, 700]⟩
abbrev S1x400 : Shape := ⟨2, ![1, 400]⟩
abbrev S50000x400 : Shape := ⟨2, ![50000, 400]⟩
abbrev S1000x400 : Shape := ⟨2, ![1000, 400]⟩
abbrev S200000x400 : Shape := ⟨2, ![200000, 400]⟩
abbrev S1x100 : Shape := ⟨2, ![1, 100]⟩
abbrev S50000x100 : Shape := ⟨2, ![50000, 100]⟩
abbrev S1000x100 : Shape := ⟨2, ![1000, 100]⟩
abbrev S200000x100 : Shape := ⟨2, ![200000, 100]⟩
abbrev S1x16 : Shape := ⟨2, ![1, 16]⟩
abbrev S50000x16 : Shape := ⟨2, ![50000, 16]⟩
abbrev S1000x16 : Shape := ⟨2, ![1000, 16]⟩

abbrev nBuf : Space → Nat
  | .hbm => 64
  | .vmem => 24
  | .smem => 0
  | _ => 0

abbrev bufTy : (tb : Table) → Fin (tcTables nBuf tb) → BufTy
  | .hbm, ⟨0, _⟩ => ⟨S50000x1433, .f32⟩
  | .hbm, ⟨1, _⟩ => ⟨S1433x700, .f32⟩
  | .hbm, ⟨2, _⟩ => ⟨S700, .f32⟩
  | .hbm, ⟨3, _⟩ => ⟨S700x400, .f32⟩
  | .hbm, ⟨4, _⟩ => ⟨S400, .f32⟩
  | .hbm, ⟨5, _⟩ => ⟨S400x100, .f32⟩
  | .hbm, ⟨6, _⟩ => ⟨S100, .f32⟩
  | .hbm, ⟨7, _⟩ => ⟨S100x16, .f32⟩
  | .hbm, ⟨8, _⟩ => ⟨S16, .f32⟩
  | .hbm, ⟨9, _⟩ => ⟨S200000, .i32⟩
  | .hbm, ⟨10, _⟩ => ⟨S200000, .i32⟩
  | .hbm, ⟨11, _⟩ => ⟨S1x700, .f32⟩
  | .hbm, ⟨12, _⟩ => ⟨S50000x700, .f32⟩
  | .hbm, ⟨13, _⟩ => ⟨S_, .i32⟩
  | .hbm, ⟨14, _⟩ => ⟨S200000, .i32⟩
  | .hbm, ⟨15, _⟩ => ⟨S200000, .i1⟩
  | .hbm, ⟨16, _⟩ => ⟨S_, .i32⟩
  | .hbm, ⟨17, _⟩ => ⟨S200000, .i32⟩
  | .hbm, ⟨18, _⟩ => ⟨S200000, .i32⟩
  | .hbm, ⟨19, _⟩ => ⟨S200000, .i32⟩
  | .hbm, ⟨20, _⟩ => ⟨S200000x1, .i32⟩
  | .hbm, ⟨21, _⟩ => ⟨S200000x700, .f32⟩
  | .hbm, ⟨22, _⟩ => ⟨S_, .f32⟩
  | .hbm, ⟨23, _⟩ => ⟨S50000x700, .f32⟩
  | .hbm, ⟨24, _⟩ => ⟨S200000x1, .i32⟩
  | .hbm, ⟨25, _⟩ => ⟨S50000x700, .f32⟩
  | .hbm, ⟨26, _⟩ => ⟨S_, .f32⟩
  | .hbm, ⟨27, _⟩ => ⟨S50000x700, .f32⟩
  | .hbm, ⟨28, _⟩ => ⟨S50000x700, .f32⟩
  | .hbm, ⟨29, _⟩ => ⟨S1x400, .f32⟩
  | .hbm, ⟨30, _⟩ => ⟨S50000x400, .f32⟩
  | .hbm, ⟨31, _⟩ => ⟨S_, .i32⟩
  | .hbm, ⟨32, _⟩ => ⟨S200000, .i32⟩
  | .hbm, ⟨33, _⟩ => ⟨S200000, .i1⟩
  | .hbm, ⟨34, _⟩ => ⟨S_, .i32⟩
  | .hbm, ⟨35, _⟩ => ⟨S200000, .i32⟩
  | .hbm, ⟨36, _⟩ => ⟨S200000, .i32⟩
  | .hbm, ⟨37, _⟩ => ⟨S200000, .i32⟩
  | .hbm, ⟨38, _⟩ => ⟨S200000x1, .i32⟩
  | .hbm, ⟨39, _⟩ => ⟨S200000x400, .f32⟩
  | .hbm, ⟨40, _⟩ => ⟨S_, .f32⟩
  | .hbm, ⟨41, _⟩ => ⟨S50000x400, .f32⟩
  | .hbm, ⟨42, _⟩ => ⟨S200000x1, .i32⟩
  | .hbm, ⟨43, _⟩ => ⟨S50000x400, .f32⟩
  | .hbm, ⟨44, _⟩ => ⟨S_, .f32⟩
  | .hbm, ⟨45, _⟩ => ⟨S50000x400, .f32⟩
  | .hbm, ⟨46, _⟩ => ⟨S50000x400, .f32⟩
  | .hbm, ⟨47, _⟩ => ⟨S1x100, .f32⟩
  | .hbm, ⟨48, _⟩ => ⟨S50000x100, .f32⟩
  | .hbm, ⟨49, _⟩ => ⟨S_, .i32⟩
  | .hbm, ⟨50, _⟩ => ⟨S200000, .i32⟩
  | .hbm, ⟨51, _⟩ => ⟨S200000, .i1⟩
  | .hbm, ⟨52, _⟩ => ⟨S_, .i32⟩
  | .hbm, ⟨53, _⟩ => ⟨S200000, .i32⟩
  | .hbm, ⟨54, _⟩ => ⟨S200000, .i32⟩
  | .hbm, ⟨55, _⟩ => ⟨S200000, .i32⟩
  | .hbm, ⟨56, _⟩ => ⟨S200000x1, .i32⟩
  | .hbm, ⟨57, _⟩ => ⟨S200000x100, .f32⟩
  | .hbm, ⟨58, _⟩ => ⟨S_, .f32⟩
  | .hbm, ⟨59, _⟩ => ⟨S50000x100, .f32⟩
  | .hbm, ⟨60, _⟩ => ⟨S200000x1, .i32⟩
  | .hbm, ⟨61, _⟩ => ⟨S50000x100, .f32⟩
  | .hbm, ⟨62, _⟩ => ⟨S1x16, .f32⟩
  | .hbm, ⟨63, _⟩ => ⟨S50000x16, .f32⟩
  | .local _ .vmem, ⟨0, _⟩ => ⟨S1000x1433, .f32⟩
  | .local _ .vmem, ⟨1, _⟩ => ⟨S1000x1433, .f32⟩
  | .local _ .vmem, ⟨2, _⟩ => ⟨S1433x700, .f32⟩
  | .local _ .vmem, ⟨3, _⟩ => ⟨S1x700, .f32⟩
  | .local _ .vmem, ⟨4, _⟩ => ⟨S1000x700, .f32⟩
  | .local _ .vmem, ⟨5, _⟩ => ⟨S1000x700, .f32⟩
  | .local _ .vmem, ⟨6, _⟩ => ⟨S1000x700, .f32⟩
  | .local _ .vmem, ⟨7, _⟩ => ⟨S1000x700, .f32⟩
  | .local _ .vmem, ⟨8, _⟩ => ⟨S700x400, .f32⟩
  | .local _ .vmem, ⟨9, _⟩ => ⟨S1x400, .f32⟩
  | .local _ .vmem, ⟨10, _⟩ => ⟨S1000x400, .f32⟩
  | .local _ .vmem, ⟨11, _⟩ => ⟨S1000x400, .f32⟩
  | .local _ .vmem, ⟨12, _⟩ => ⟨S1000x400, .f32⟩
  | .local _ .vmem, ⟨13, _⟩ => ⟨S1000x400, .f32⟩
  | .local _ .vmem, ⟨14, _⟩ => ⟨S400x100, .f32⟩
  | .local _ .vmem, ⟨15, _⟩ => ⟨S1x100, .f32⟩
  | .local _ .vmem, ⟨16, _⟩ => ⟨S1000x100, .f32⟩
  | .local _ .vmem, ⟨17, _⟩ => ⟨S1000x100, .f32⟩
  | .local _ .vmem, ⟨18, _⟩ => ⟨S1000x100, .f32⟩
  | .local _ .vmem, ⟨19, _⟩ => ⟨S1000x100, .f32⟩
  | .local _ .vmem, ⟨20, _⟩ => ⟨S100x16, .f32⟩
  | .local _ .vmem, ⟨21, _⟩ => ⟨S1x16, .f32⟩
  | .local _ .vmem, ⟨22, _⟩ => ⟨S1000x16, .f32⟩
  | .local _ .vmem, ⟨23, _⟩ => ⟨S1000x16, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_cst : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x700 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x700 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x700 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x700 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S700x400 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x400 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x400 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S400x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S700_S1x700 : S700.ShapeCasts S1x700
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x700_S1433x700_0_0 : ∀ a, (![0, 0] : Fin 2 → Nat) a + S1433x700.size a ≤ S1433x700.size a
  h_S1433x700 : 0 < S1433x700.numel
  inb_S1x700_S1x700_0_0 : ∀ a, (![0, 0] : Fin 2 → Nat) a + S1x700.size a ≤ S1x700.size a
  h_S1x700 : 0 < S1x700.numel
  shapeCasts_S1x700_S1x700 : S1x700.ShapeCasts S1x700
  broadcasts_S1x700_S1000x700 : S1x700.Broadcasts S1000x700
  inb_S1000x700_S1000x700_0_0 : ∀ a, (![0, 0] : Fin 2 → Nat) a + S1000x700.size a ≤ S1000x700.size a
  h_S1000x700 : 0 < S1000x700.numel
  bcast_S_S200000 : S_.BroadcastsInDim S200000 (![] : Fin 0 → Fin S200000.rank)
  bcast_S200000_S200000x1_0 : S200000.BroadcastsInDim S200000x1 (![0] : Fin 1 → Fin S200000x1.rank)
  bcast_S_S50000x700 : S_.BroadcastsInDim S50000x700 (![] : Fin 0 → Fin S50000x700.rank)
  shapeCasts_S400_S1x400 : S400.ShapeCasts S1x400
  shapeCasts_S1000x700_S1000x700 : S1000x700.ShapeCasts S1000x700
  inb_S700x400_S700x400_0_0 : ∀ a, (![0, 0] : Fin 2 → Nat) a + S700x400.size a ≤ S700x400.size a
  h_S700x400 : 0 < S700x400.numel
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S1000x400 : S1x400.Broadcasts S1000x400
  inb_S1000x400_S1000x400_0_0 : ∀ a, (![0, 0] : Fin 2 → Nat) a + S1000x400.size a ≤ S1000x400.size a
  h_S1000x400 : 0 < S1000x400.numel
  bcast_S_S50000x400 : S_.BroadcastsInDim S50000x400 (![] : Fin 0 → Fin S50000x400.rank)
  shapeCasts_S100_S1x100 : S100.ShapeCasts S1x100
  shapeCasts_S1000x400_S1000x400 : S1000x400.ShapeCasts S1000x400
  inb_S400x100_S400x100_0_0 : ∀ a, (![0, 0] : Fin 2 → Nat) a + S400x100.size a ≤ S400x100.size a
  h_S400x100 : 0 < S400x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1000x100 : S1x100.Broadcasts S1000x100
  inb_S1000x100_S1000x100_0_0 : ∀ a, (![0, 0] : Fin 2 → Nat) a + S1000x100.size a ≤ S1000x100.size a
  h_S1000x100 : 0 < S1000x100.numel
  bcast_S_S50000x100 : S_.BroadcastsInDim S50000x100 (![] : Fin 0 → Fin S50000x100.rank)
  shapeCasts_S16_S1x16 : S16.ShapeCasts S1x16
  shapeCasts_S1000x100_S1000x100 : S1000x100.ShapeCasts S1000x100
  inb_S100x16_S100x16_0_0 : ∀ a, (![0, 0] : Fin 2 → Nat) a + S100x16.size a ≤ S100x16.size a
  h_S100x16 : 0 < S100x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S1000x16_S1000x16_0_0 : ∀ a, (![0, 0] : Fin 2 → Nat) a + S1000x16.size a ≤ S1000x16.size a
  h_S1000x16 : 0 < S1000x16.numel
  dot_S1000x1433_S1433x700_S1000x700_1_0_0_1_n_n_wf : DotDims.WF S1000x1433 S1433x700 S1000x700 [1] [0] [0] [1] [] []
  gather_S50000x700_S200000x1_S200000x700_1_0_n_n_0_1_1700_wf : GatherDims.WF S50000x700 S200000x1 S200000x700 [1] [0] [] [0] [] 1 ![1, 700]
  scatter_S50000x700_S200000x1_S200000x700_1_0_0_1_wf : ScatterDims.WF S50000x700 S200000x1 S200000x700 [1] [0] [0] 1
  dot_S1000x700_S700x400_S1000x400_1_0_0_1_n_n_wf : DotDims.WF S1000x700 S700x400 S1000x400 [1] [0] [0] [1] [] []
  gather_S50000x400_S200000x1_S200000x400_1_0_n_n_0_1_1400_wf : GatherDims.WF S50000x400 S200000x1 S200000x400 [1] [0] [] [0] [] 1 ![1, 400]
  scatter_S50000x400_S200000x1_S200000x400_1_0_0_1_wf : ScatterDims.WF S50000x400 S200000x1 S200000x400 [1] [0] [0] 1
  dot_S1000x400_S400x100_S1000x100_1_0_0_1_n_n_wf : DotDims.WF S1000x400 S400x100 S1000x100 [1] [0] [0] [1] [] []
  gather_S50000x100_S200000x1_S200000x100_1_0_n_n_0_1_1100_wf : GatherDims.WF S50000x100 S200000x1 S200000x100 [1] [0] [] [0] [] 1 ![1, 100]
  scatter_S50000x100_S200000x1_S200000x100_1_0_0_1_wf : ScatterDims.WF S50000x100 S200000x1 S200000x100 [1] [0] [0] 1
  dot_S1000x100_S100x16_S1000x16_1_0_0_1_n_n_wf : DotDims.WF S1000x100 S100x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x700.size a ≤ S1433x700.size a
  hwx0_1 : ∀ i : grid0.Coords, EltTy.bits .f32 = 32 ∨ (Rect.block (s := S1433x700) S1433x700.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x700.size a ≤ S1x700.size a
  hwx0_2 : ∀ i : grid0.Coords, EltTy.bits .f32 = 32 ∨ (Rect.block (s := S1x700) S1x700.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x700.size a ≤ S50000x700.size a
  hwx0_3 : ∀ i : grid0.Coords, EltTy.bits .f32 = 32 ∨ (Rect.block (s := S50000x700) S1000x700.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x700.size a ≤ S50000x700.size a
  hwx1_0 : ∀ i : grid1.Coords, EltTy.bits .f32 = 32 ∨ (Rect.block (s := S50000x700) S1000x700.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S700x400.size a ≤ S700x400.size a
  hwx1_1 : ∀ i : grid1.Coords, EltTy.bits .f32 = 32 ∨ (Rect.block (s := S700x400) S700x400.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x400.size a ≤ S1x400.size a
  hwx1_2 : ∀ i : grid1.Coords, EltTy.bits .f32 = 32 ∨ (Rect.block (s := S1x400) S1x400.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x400.size a ≤ S50000x400.size a
  hwx1_3 : ∀ i : grid1.Coords, EltTy.bits .f32 = 32 ∨ (Rect.block (s := S50000x400) S1000x400.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x400.size a ≤ S50000x400.size a
  hwx2_0 : ∀ i : grid2.Coords, EltTy.bits .f32 = 32 ∨ (Rect.block (s := S50000x400) S1000x400.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S400x100.size a ≤ S400x100.size a
  hwx2_1 : ∀ i : grid2.Coords, EltTy.bits .f32 = 32 ∨ (Rect.block (s := S400x100) S400x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x100.size a ≤ S50000x100.size a
  hwx2_3 : ∀ i : grid2.Coords, EltTy.bits .f32 = 32 ∨ (Rect.block (s := S50000x100) S1000x100.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x100.size a ≤ S50000x100.size a
  hwx3_0 : ∀ i : grid3.Coords, EltTy.bits .f32 = 32 ∨ (Rect.block (s := S50000x100) S1000x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x16.size a ≤ S100x16.size a
  hwx3_1 : ∀ i : grid3.Coords, EltTy.bits .f32 = 32 ∨ (Rect.block (s := S100x16) S100x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x16.size a ≤ S50000x16.size a
  hwx3_3 : ∀ i : grid3.Coords, EltTy.bits .f32 = 32 ∨ (Rect.block (s := S50000x16) S1000x16.size (cc3_transform_3 i) (hinb3_3 i)).WholeWords (EltTy.packing .f32)

variable [Facts₀]

def dot_S1000x1433_S1433x700_S1000x700_1_0_0_1_n_n : DotDims S1000x1433 S1433x700 S1000x700 where
  lhsContracting := [1]
  rhsContracting := [0]
  lhsNonContracting := [0]
  rhsNonContracting := [1]
  lhsBatch := []
  rhsBatch := []
  wf := dot_S1000x1433_S1433x700_S1000x700_1_0_0_1_n_n_wf
def gather_S50000x700_S200000x1_S200000x700_1_0_n_n_0_1_1700 : GatherDims S50000x700 S200000x1 S200000x700 where
  offsetDims := [1]
  collapsedSliceDims := [0]
  operandBatchingDims := []
  startIndicesBatchingDims := []
  startIndexMap := [0]
  indexVectorDim := 1
  sliceSizes := ![1, 700]
  wf := gather_S50000x700_S200000x1_S200000x700_1_0_n_n_0_1_1700_wf
def scatter_S50000x700_S200000x1_S200000x700_1_0_0_1 : ScatterDims S50000x700 S200000x1 S200000x700 where
  updateWindowDims := [1]
  insertedWindowDims := [0]
  scatterDimsToOperandDims := [0]
  indexVectorDim := 1
  wf := scatter_S50000x700_S200000x1_S200000x700_1_0_0_1_wf
def dot_S1000x700_S700x400_S1000x400_1_0_0_1_n_n : DotDims S1000x700 S700x400 S1000x400 where
  lhsContracting := [1]
  rhsContracting := [0]
  lhsNonContracting := [0]
  rhsNonContracting := [1]
  lhsBatch := []
  rhsBatch := []
  wf := dot_S1000x700_S700x400_S1000x400_1_0_0_1_n_n_wf
def gather_S50000x400_S200000x1_S200000x400_1_0_n_n_0_1_1400 : GatherDims S50000x400 S200000x1 S200000x400 where
  offsetDims := [1]
  collapsedSliceDims := [0]
  operandBatchingDims := []
  startIndicesBatchingDims := []
  startIndexMap := [0]
  indexVectorDim := 1
  sliceSizes := ![1, 400]
  wf := gather_S50000x400_S200000x1_S200000x400_1_0_n_n_0_1_1400_wf
def scatter_S50000x400_S200000x1_S200000x400_1_0_0_1 : ScatterDims S50000x400 S200000x1 S200000x400 where
  updateWindowDims := [1]
  insertedWindowDims := [0]
  scatterDimsToOperandDims := [0]
  indexVectorDim := 1
  wf := scatter_S50000x400_S200000x1_S200000x400_1_0_0_1_wf
def dot_S1000x400_S400x100_S1000x100_1_0_0_1_n_n : DotDims S1000x400 S400x100 S1000x100 where
  lhsContracting := [1]
  rhsContracting := [0]
  lhsNonContracting := [0]
  rhsNonContracting := [1]
  lhsBatch := []
  rhsBatch := []
  wf := dot_S1000x400_S400x100_S1000x100_1_0_0_1_n_n_wf
def gather_S50000x100_S200000x1_S200000x100_1_0_n_n_0_1_1100 : GatherDims S50000x100 S200000x1 S200000x100 where
  offsetDims := [1]
  collapsedSliceDims := [0]
  operandBatchingDims := []
  startIndicesBatchingDims := []
  startIndexMap := [0]
  indexVectorDim := 1
  sliceSizes := ![1, 100]
  wf := gather_S50000x100_S200000x1_S200000x100_1_0_n_n_0_1_1100_wf
def scatter_S50000x100_S200000x1_S200000x100_1_0_0_1 : ScatterDims S50000x100 S200000x1 S200000x100 where
  updateWindowDims := [1]
  insertedWindowDims := [0]
  scatterDimsToOperandDims := [0]
  indexVectorDim := 1
  wf := scatter_S50000x100_S200000x1_S200000x100_1_0_0_1_wf
def dot_S1000x100_S100x16_S1000x16_1_0_0_1_n_n : DotDims S1000x100 S100x16 S1000x16 where
  lhsContracting := [1]
  rhsContracting := [0]
  lhsNonContracting := [0]
  rhsNonContracting := [1]
  lhsBatch := []
  rhsBatch := []
  wf := dot_S1000x100_S100x16_S1000x16_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1433x700.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x700.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x700.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S1000x700.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S700x400.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x400.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1000x400.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S1000x400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S400x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1000x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S1000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S100x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x1433 : Shape := ⟨2, ![50000, 1433]⟩
abbrev S1433x700 : Shape := ⟨2, ![1433, 700]⟩
abbrev S700 : Shape := ⟨1, ![700]⟩
abbrev S700x400 : Shape := ⟨2, ![700, 400]⟩
abbrev S400 : Shape := ⟨1, ![400]⟩
abbrev S400x100 : Shape := ⟨2, ![400, 100]⟩
abbrev S100 : Shape := ⟨1, ![100]⟩
abbrev S100x16 : Shape := ⟨2, ![100, 16]⟩
abbrev S16 : Shape := ⟨1, ![16]⟩
abbrev S200000 : Shape := ⟨1, ![200000]⟩
abbrev S50000x700 : Shape := ⟨2, ![50000, 700]⟩
abbrev S1x700 : Shape := ⟨2, ![1, 700]⟩
abbrev S_ : Shape := ⟨0, ![]⟩
abbrev S200000x1 : Shape := ⟨2, ![200000, 1]⟩
abbrev S200000x700 : Shape := ⟨2, ![200000, 700]⟩
abbrev S50000x400 : Shape := ⟨2, ![50000, 400]⟩
abbrev S1x400 : Shape := ⟨2, ![1, 400]⟩
abbrev S200000x400 : Shape := ⟨2, ![200000, 400]⟩
abbrev S50000x100 : Shape := ⟨2, ![50000, 100]⟩
abbrev S1x100 : Shape := ⟨2, ![1, 100]⟩
abbrev S200000x100 : Shape := ⟨2, ![200000, 100]⟩
abbrev S50000x16 : Shape := ⟨2, ![50000, 16]⟩
abbrev S1x16 : Shape := ⟨2, ![1, 16]⟩

abbrev nBuf : Space → Nat
  | .hbm => 75
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S1433x700, .f32⟩
  | .hbm, ⟨2, _⟩ => ⟨S700, .f32⟩
  | .hbm, ⟨3, _⟩ => ⟨S700x400, .f32⟩
  | .hbm, ⟨4, _⟩ => ⟨S400, .f32⟩
  | .hbm, ⟨5, _⟩ => ⟨S400x100, .f32⟩
  | .hbm, ⟨6, _⟩ => ⟨S100, .f32⟩
  | .hbm, ⟨7, _⟩ => ⟨S100x16, .f32⟩
  | .hbm, ⟨8, _⟩ => ⟨S16, .f32⟩
  | .hbm, ⟨9, _⟩ => ⟨S200000, .i32⟩
  | .hbm, ⟨10, _⟩ => ⟨S200000, .i32⟩
  | .hbm, ⟨11, _⟩ => ⟨S50000x700, .f32⟩
  | .hbm, ⟨12, _⟩ => ⟨S1x700, .f32⟩
  | .hbm, ⟨13, _⟩ => ⟨S50000x700, .f32⟩
  | .hbm, ⟨14, _⟩ => ⟨S50000x700, .f32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x700, .f32⟩
  | .hbm, ⟨24, _⟩ => ⟨S_, .f32⟩
  | .hbm, ⟨25, _⟩ => ⟨S50000x700, .f32⟩
  | .hbm, ⟨26, _⟩ => ⟨S200000x1, .i32⟩
  | .hbm, ⟨27, _⟩ => ⟨S50000x700, .f32⟩
  | .hbm, ⟨28, _⟩ => ⟨S_, .f32⟩
  | .hbm, ⟨29, _⟩ => ⟨S50000x700, .f32⟩
  | .hbm, ⟨30, _⟩ => ⟨S50000x700, .f32⟩
  | .hbm, ⟨31, _⟩ => ⟨S50000x400, .f32⟩
  | .hbm, ⟨32, _⟩ => ⟨S1x400, .f32⟩
  | .hbm, ⟨33, _⟩ => ⟨S50000x400, .f32⟩
  | .hbm, ⟨34, _⟩ => ⟨S50000x400, .f32⟩
  | .hbm, ⟨35, _⟩ => ⟨S_, .i32⟩
  | .hbm, ⟨36, _⟩ => ⟨S200000, .i32⟩
  | .hbm, ⟨37, _⟩ => ⟨S200000, .i1⟩
  | .hbm, ⟨38, _⟩ => ⟨S_, .i32⟩
  | .hbm, ⟨39, _⟩ => ⟨S200000, .i32⟩
  | .hbm, ⟨40, _⟩ => ⟨S200000, .i32⟩
  | .hbm, ⟨41, _⟩ => ⟨S200000, .i32⟩
  | .hbm, ⟨42, _⟩ => ⟨S200000x1, .i32⟩
  | .hbm, ⟨43, _⟩ => ⟨S200000x400, .f32⟩
  | .hbm, ⟨44, _⟩ => ⟨S_, .f32⟩
  | .hbm, ⟨45, _⟩ => ⟨S50000x400, .f32⟩
  | .hbm, ⟨46, _⟩ => ⟨S200000x1, .i32⟩
  | .hbm, ⟨47, _⟩ => ⟨S50000x400, .f32⟩
  | .hbm, ⟨48, _⟩ => ⟨S_, .f32⟩
  | .hbm, ⟨49, _⟩ => ⟨S50000x400, .f32⟩
  | .hbm, ⟨50, _⟩ => ⟨S50000x400, .f32⟩
  | .hbm, ⟨51, _⟩ => ⟨S50000x100, .f32⟩
  | .hbm, ⟨52, _⟩ => ⟨S1x100, .f32⟩
  | .hbm, ⟨53, _⟩ => ⟨S50000x100, .f32⟩
  | .hbm, ⟨54, _⟩ => ⟨S50000x100, .f32⟩
  | .hbm, ⟨55, _⟩ => ⟨S_, .i32⟩
  | .hbm, ⟨56, _⟩ => ⟨S200000, .i32⟩
  | .hbm, ⟨57, _⟩ => ⟨S200000, .i1⟩
  | .hbm, ⟨58, _⟩ => ⟨S_, .i32⟩
  | .hbm, ⟨59, _⟩ => ⟨S200000, .i32⟩
  | .hbm, ⟨60, _⟩ => ⟨S200000, .i32⟩
  | .hbm, ⟨61, _⟩ => ⟨S200000, .i32⟩
  | .hbm, ⟨62, _⟩ => ⟨S200000x1, .i32⟩
  | .hbm, ⟨63, _⟩ => ⟨S200000x100, .f32⟩
  | .hbm, ⟨64, _⟩ => ⟨S_, .f32⟩
  | .hbm, ⟨65, _⟩ => ⟨S50000x100, .f32⟩
  | .hbm, ⟨66, _⟩ => ⟨S200000x1, .i32⟩
  | .hbm, ⟨67, _⟩ => ⟨S50000x100, .f32⟩
  | .hbm, ⟨68, _⟩ => ⟨S50000x16, .f32⟩
  | .hbm, ⟨69, _⟩ => ⟨S1x16, .f32⟩
  | .hbm, ⟨70, _⟩ => ⟨S50000x16, .f32⟩
  | .hbm, ⟨71, _⟩ => ⟨S50000x16, .f32⟩
  | .hbm, ⟨72, _⟩ => ⟨S_, .f32⟩
  | .hbm, ⟨73, _⟩ => ⟨S50000x16, .f32⟩
  | .hbm, ⟨74, _⟩ => ⟨S50000x16, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_cst : Ref sig .tc := ⟨.hbm, 72, rfl⟩
abbrev main_call2_v0 : Ref sig .tc := ⟨.hbm, 73, rfl⟩
abbrev main_v48 : Ref sig .tc := ⟨.hbm, 74, rfl⟩

abbrev nD : Nat := 1
abbrev τ : Topo := Topo.v7x

variable {F : FTy → Type} [FloatOps F]

class Facts₀ : Prop where
  bcast_S700_S1x700_1 : S700.BroadcastsInDim S1x700 (![1] : Fin 1 → Fin S1x700.rank)
  bcast_S1x700_S50000x700_0_1 : S1x700.BroadcastsInDim S50000x700 (![0, 1] : Fin 2 → Fin S50000x700.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S50000x700 : S_.BroadcastsInDim S50000x700 (![] : Fin 0 → Fin S50000x700.rank)
  bcast_S400_S1x400_1 : S400.BroadcastsInDim S1x400 (![1] : Fin 1 → Fin S1x400.rank)
  bcast_S1x400_S50000x400_0_1 : S1x400.BroadcastsInDim S50000x400 (![0, 1] : Fin 2 → Fin S50000x400.rank)
  bcast_S_S50000x400 : S_.BroadcastsInDim S50000x400 (![] : Fin 0 → Fin S50000x400.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  dot_S50000x1433_S1433x700_S50000x700_1_0_0_1_n_n_wf : DotDims.WF S50000x1433 S1433x700 S50000x700 [1] [0] [0] [1] [] []
  gather_S50000x700_S200000x1_S200000x700_1_0_n_n_0_1_1700_wf : GatherDims.WF S50000x700 S200000x1 S200000x700 [1] [0] [] [0] [] 1 ![1, 700]
  scatter_S50000x700_S200000x1_S200000x700_1_0_0_1_wf : ScatterDims.WF S50000x700 S200000x1 S200000x700 [1] [0] [0] 1
  dot_S50000x700_S700x400_S50000x400_1_0_0_1_n_n_wf : DotDims.WF S50000x700 S700x400 S50000x400 [1] [0] [0] [1] [] []
  gather_S50000x400_S200000x1_S200000x400_1_0_n_n_0_1_1400_wf : GatherDims.WF S50000x400 S200000x1 S200000x400 [1] [0] [] [0] [] 1 ![1, 400]
  scatter_S50000x400_S200000x1_S200000x400_1_0_0_1_wf : ScatterDims.WF S50000x400 S200000x1 S200000x400 [1] [0] [0] 1
  dot_S50000x400_S400x100_S50000x100_1_0_0_1_n_n_wf : DotDims.WF S50000x400 S400x100 S50000x100 [1] [0] [0] [1] [] []
  gather_S50000x100_S200000x1_S200000x100_1_0_n_n_0_1_1100_wf : GatherDims.WF S50000x100 S200000x1 S200000x100 [1] [0] [] [0] [] 1 ![1, 100]
  scatter_S50000x100_S200000x1_S200000x100_1_0_0_1_wf : ScatterDims.WF S50000x100 S200000x1 S200000x100 [1] [0] [0] 1
  dot_S50000x100_S100x16_S50000x16_1_0_0_1_n_n_wf : DotDims.WF S50000x100 S100x16 S50000x16 [1] [0] [0] [1] [] []

variable [Facts₀]

def dot_S50000x1433_S1433x700_S50000x700_1_0_0_1_n_n : DotDims S50000x1433 S1433x700 S50000x700 where
  lhsContracting := [1]
  rhsContracting := [0]
  lhsNonContracting := [0]
  rhsNonContracting := [1]
  lhsBatch := []
  rhsBatch := []
  wf := dot_S50000x1433_S1433x700_S50000x700_1_0_0_1_n_n_wf
def gather_S50000x700_S200000x1_S200000x700_1_0_n_n_0_1_1700 : GatherDims S50000x700 S200000x1 S200000x700 where
  offsetDims := [1]
  collapsedSliceDims := [0]
  operandBatchingDims := []
  startIndicesBatchingDims := []
  startIndexMap := [0]
  indexVectorDim := 1
  sliceSizes := ![1, 700]
  wf := gather_S50000x700_S200000x1_S200000x700_1_0_n_n_0_1_1700_wf
def scatter_S50000x700_S200000x1_S200000x700_1_0_0_1 : ScatterDims S50000x700 S200000x1 S200000x700 where
  updateWindowDims := [1]
  insertedWindowDims := [0]
  scatterDimsToOperandDims := [0]
  indexVectorDim := 1
  wf := scatter_S50000x700_S200000x1_S200000x700_1_0_0_1_wf
def dot_S50000x700_S700x400_S50000x400_1_0_0_1_n_n : DotDims S50000x700 S700x400 S50000x400 where
  lhsContracting := [1]
  rhsContracting := [0]
  lhsNonContracting := [0]
  rhsNonContracting := [1]
  lhsBatch := []
  rhsBatch := []
  wf := dot_S50000x700_S700x400_S50000x400_1_0_0_1_n_n_wf
def gather_S50000x400_S200000x1_S200000x400_1_0_n_n_0_1_1400 : GatherDims S50000x400 S200000x1 S200000x400 where
  offsetDims := [1]
  collapsedSliceDims := [0]
  operandBatchingDims := []
  startIndicesBatchingDims := []
  startIndexMap := [0]
  indexVectorDim := 1
  sliceSizes := ![1, 400]
  wf := gather_S50000x400_S200000x1_S200000x400_1_0_n_n_0_1_1400_wf
def scatter_S50000x400_S200000x1_S200000x400_1_0_0_1 : ScatterDims S50000x400 S200000x1 S200000x400 where
  updateWindowDims := [1]
  insertedWindowDims := [0]
  scatterDimsToOperandDims := [0]
  indexVectorDim := 1
  wf := scatter_S50000x400_S200000x1_S200000x400_1_0_0_1_wf
def dot_S50000x400_S400x100_S50000x100_1_0_0_1_n_n : DotDims S50000x400 S400x100 S50000x100 where
  lhsContracting := [1]
  rhsContracting := [0]
  lhsNonContracting := [0]
  rhsNonContracting := [1]
  lhsBatch := []
  rhsBatch := []
  wf := dot_S50000x400_S400x100_S50000x100_1_0_0_1_n_n_wf
def gather_S50000x100_S200000x1_S200000x100_1_0_n_n_0_1_1100 : GatherDims S50000x100 S200000x1 S200000x100 where
  offsetDims := [1]
  collapsedSliceDims := [0]
  operandBatchingDims := []
  startIndicesBatchingDims := []
  startIndexMap := [0]
  indexVectorDim := 1
  sliceSizes := ![1, 100]
  wf := gather_S50000x100_S200000x1_S200000x100_1_0_n_n_0_1_1100_wf
def scatter_S50000x100_S200000x1_S200000x100_1_0_0_1 : ScatterDims S50000x100 S200000x1 S200000x100 where
  updateWindowDims := [1]
  insertedWindowDims := [0]
  scatterDimsToOperandDims := [0]
  indexVectorDim := 1
  wf := scatter_S50000x100_S200000x1_S200000x100_1_0_0_1_wf
def dot_S50000x100_S100x16_S50000x16_1_0_0_1_n_n : DotDims S50000x100 S100x16 S50000x16 where
  lhsContracting := [1]
  rhsContracting := [0]
  lhsNonContracting := [0]
  rhsNonContracting := [1]
  lhsBatch := []
  rhsBatch := []
  wf := dot_S50000x100_S100x16_S50000x16_1_0_0_1_n_n_wf

class Facts : Prop extends Facts₀ where

variable [Facts]
-- ==== Proof.Spec.lean ====
/-
  The dense layer of the graph network, as a table of extended reals: entry (p, q) of x·w + b is the sum over k of
  x[p, k] · w[k, q], plus the bias at column q. The bias is carried as a one-row table [1, N], which is how the kernel
  stages it; the reference carries it as a vector [N], and the two agree entry by entry. The last layer is followed
  by a maximum against a fixed threshold (the positive part).
-/
import Idealize.ShloMosaic.PureOps.Ideal
import Idealize.ShloMosaic.Lib.ValueIdx

noncomputable section

namespace Cert.Gcn

open Idealize.ShloMosaic Idealize.ShloMosaic.ValueIdx

/-- One entry of a dense layer: row `p` of `x` against column `q` of `w`, plus the bias at column `q`. -/
def denseAt {M K N : Nat} (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 (0 : Fin 1) q)

/-- The dense layer as a whole table [M, N]. -/
def dense {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => denseAt x w b ⟨(i 0).val, idx2_lt0 i⟩ ⟨(i 1).val, idx2_lt1 i⟩

theorem dense_ix2 {M K N : Nat} (x : (⟨2, ![M, K]⟩ : Shape).Idx → EReal) (w : (⟨2, ![K, N]⟩ : Shape).Idx → EReal)
    (b : (⟨2, ![1, N]⟩ : Shape).Idx → EReal) (p : Fin M) (q : Fin N) :
    dense x w b (ix2 p q) = denseAt x w b p q := rfl

/-- The dense layer followed, entry by entry, by the maximum against a threshold `z`. -/
def denseMax {M K N : Nat} (z : EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (dense x w b i) z

theorem denseMax_ix2 {M K N : Nat} (z : EReal) (x : (⟨2, ![M, K]⟩ : Shape).Idx → EReal) (w : (⟨2, ![K, N]⟩ : Shape).Idx → EReal)
    (b : (⟨2, ![1, N]⟩ : Shape).Idx → EReal) (p : Fin M) (q : Fin N) :
    denseMax z x w b (ix2 p q) = max (denseAt x w b p q) z := rfl

end Cert.Gcn

end
-- ==== Proof.Net.lean ====
/-
  The graph network both programs compute, in the reference's own operations: four dense layers, the first three each
  followed by an aggregation over the graph's edges (gather the rows at the edges' sources, add them up at the edges'
  destinations), the first two aggregations and the last dense layer followed by the positive part. The aggregation
  and the positive part are the same host operations in both programs, so they are carried here as whole functions and
  never opened; only the dense layer is computed differently by the two sides.
-/
import proofs.«171094_j31095563223209_1_alg».proof.ReferenceIdeal
import proofs.«171094_j31095563223209_1_alg».proof.Proof.Gen.ReferenceIdeal
import Idealize.ShloMosaic.PureOps.Ideal

noncomputable section

namespace Cert.Gcn

open Idealize.ShloMosaic Cert.ReferenceIdeal Cert.ReferenceIdeal.Gen

/-- One aggregation over the graph's edges at width 700: a negative source index is shifted up by the number of
    nodes, row `src e` of the table is gathered for every edge `e`, and the gathered rows are added into a zero
    table at row `dst e`. -/
def agg700 (h : FVec Ideal S50000x700 .f32) (src dst : IVec S200000 32) : FVec Ideal S50000x700 .f32 :=
  Host.scatterAdd (F := Ideal) scatter_S50000x700_S200000x1_S200000x700_1_0_0_1
    (broadcastInDim S50000x700 ![] bcast_S_S50000x700 (constant (F := Ideal) S_ .f32 0x00000000#32))
    (broadcastInDim S200000x1 ![0] bcast_S200000_S200000x1_0 dst)
    (Host.gather gather_S50000x700_S200000x1_S200000x700_1_0_n_n_0_1_1700 h
      (broadcastInDim S200000x1 ![0] bcast_S200000_S200000x1_0
        (select (cmpi .slt src (broadcastInDim S200000 ![] bcast_S_S200000 (constantI S_ 32 0#32)))
          (addi src (broadcastInDim S200000 ![] bcast_S_S200000 (constantI S_ 32 50000#32))) src)))

/-- One aggregation over the graph's edges at width 400: a negative source index is shifted up by the number of
    nodes, row `src e` of the table is gathered for every edge `e`, and the gathered rows are added into a zero
    table at row `dst e`. -/
def agg400 (h : FVec Ideal S50000x400 .f32) (src dst : IVec S200000 32) : FVec Ideal S50000x400 .f32 :=
  Host.scatterAdd (F := Ideal) scatter_S50000x400_S200000x1_S200000x400_1_0_0_1
    (broadcastInDim S50000x400 ![] bcast_S_S50000x400 (constant (F := Ideal) S_ .f32 0x00000000#32))
    (broadcastInDim S200000x1 ![0] bcast_S200000_S200000x1_0 dst)
    (Host.gather gather_S50000x400_S200000x1_S200000x400_1_0_n_n_0_1_1400 h
      (broadcastInDim S200000x1 ![0] bcast_S200000_S200000x1_0
        (select (cmpi .slt src (broadcastInDim S200000 ![] bcast_S_S200000 (constantI S_ 32 0#32)))
          (addi src (broadcastInDim S200000 ![] bcast_S_S200000 (constantI S_ 32 50000#32))) src)))

/-- One aggregation over the graph's edges at width 100: a negative source index is shifted up by the number of
    nodes, row `src e` of the table is gathered for every edge `e`, and the gathered rows are added into a zero
    table at row `dst e`. -/
def agg100 (h : FVec Ideal S50000x100 .f32) (src dst : IVec S200000 32) : FVec Ideal S50000x100 .f32 :=
  Host.scatterAdd (F := Ideal) scatter_S50000x100_S200000x1_S200000x100_1_0_0_1
    (broadcastInDim S50000x100 ![] bcast_S_S50000x100 (constant (F := Ideal) S_ .f32 0x00000000#32))
    (broadcastInDim S200000x1 ![0] bcast_S200000_S200000x1_0 dst)
    (Host.gather gather_S50000x100_S200000x1_S200000x100_1_0_n_n_0_1_1100 h
      (broadcastInDim S200000x1 ![0] bcast_S200000_S200000x1_0
        (select (cmpi .slt src (broadcastInDim S200000 ![] bcast_S_S200000 (constantI S_ 32 0#32)))
          (addi src (broadcastInDim S200000 ![] bcast_S_S200000 (constantI S_ 32 50000#32))) src)))

/-- The positive part of a table of width 700: the maximum against the zero table, entry by entry. -/
def pos700 (h : FVec Ideal S50000x700 .f32) : FVec Ideal S50000x700 .f32 :=
  maximumf (F := Ideal) h (broadcastInDim S50000x700 ![] bcast_S_S50000x700 (constant (F := Ideal) S_ .f32 0x00000000#32))

/-- The positive part of a table of width 400: the maximum against the zero table, entry by entry. -/
def pos400 (h : FVec Ideal S50000x400 .f32) : FVec Ideal S50000x400 .f32 :=
  maximumf (F := Ideal) h (broadcastInDim S50000x400 ![] bcast_S_S50000x400 (constant (F := Ideal) S_ .f32 0x00000000#32))

/-- The positive part of a table of width 16: the maximum against the zero table, entry by entry. -/
def pos16 (h : FVec Ideal S50000x16 .f32) : FVec Ideal S50000x16 .f32 :=
  maximumf (F := Ideal) h (broadcastInDim S50000x16 ![] bcast_S_S50000x16 (constant (F := Ideal) S_ .f32 0x00000000#32))

/-- The reference's dense layer 1433 → 700: the product of the table with the weights, plus the bias row broadcast over the rows. -/
def lin0 (x : FVec Ideal S50000x1433 .f32) (w : FVec Ideal S1433x700 .f32) (b : FVec Ideal S700 .f32) : FVec Ideal S50000x700 .f32 :=
  addf (F := Ideal) (Host.dotGeneral (F := Ideal) dot_S50000x1433_S1433x700_S50000x700_1_0_0_1_n_n none x w)
    (broadcastInDim S50000x700 ![0, 1] bcast_S1x700_S50000x700_0_1 (broadcastInDim S1x700 ![1] bcast_S700_S1x700_1 b))

/-- The reference's dense layer 700 → 400: the product of the table with the weights, plus the bias row broadcast over the rows. -/
def lin1 (x : FVec Ideal S50000x700 .f32) (w : FVec Ideal S700x400 .f32) (b : FVec Ideal S400 .f32) : FVec Ideal S50000x400 .f32 :=
  addf (F := Ideal) (Host.dotGeneral (F := Ideal) dot_S50000x700_S700x400_S50000x400_1_0_0_1_n_n none x w)
    (broadcastInDim S50000x400 ![0, 1] bcast_S1x400_S50000x400_0_1 (broadcastInDim S1x400 ![1] bcast_S400_S1x400_1 b))

/-- The reference's dense layer 400 → 100: the product of the table with the weights, plus the bias row broadcast over the rows. -/
def lin2 (x : FVec Ideal S50000x400 .f32) (w : FVec Ideal S400x100 .f32) (b : FVec Ideal S100 .f32) : FVec Ideal S50000x100 .f32 :=
  addf (F := Ideal) (Host.dotGeneral (F := Ideal) dot_S50000x400_S400x100_S50000x100_1_0_0_1_n_n none x w)
    (broadcastInDim S50000x100 ![0, 1] bcast_S1x100_S50000x100_0_1 (broadcastInDim S1x100 ![1] bcast_S100_S1x100_1 b))

/-- The reference's dense layer 100 → 16: the product of the table with the weights, plus the bias row broadcast over the rows. -/
def lin3 (x : FVec Ideal S50000x100 .f32) (w : FVec Ideal S100x16 .f32) (b : FVec Ideal S16 .f32) : FVec Ideal S50000x16 .f32 :=
  addf (F := Ideal) (Host.dotGeneral (F := Ideal) dot_S50000x100_S100x16_S50000x16_1_0_0_1_n_n none x w)
    (broadcastInDim S50000x16 ![0, 1] bcast_S1x16_S50000x16_0_1 (broadcastInDim S1x16 ![1] bcast_S16_S1x16_1 b))

/-- The whole network, from the node features, the four layers' weights and biases, and the edges' two index lists. -/
def net (x : FVec Ideal S50000x1433 .f32) (w1 : FVec Ideal S1433x700 .f32) (b1 : FVec Ideal S700 .f32)
    (w2 : FVec Ideal S700x400 .f32) (b2 : FVec Ideal S400 .f32) (w3 : FVec Ideal S400x100 .f32) (b3 : FVec Ideal S100 .f32)
    (wi : FVec Ideal S100x16 .f32) (bi : FVec Ideal S16 .f32) (src dst : IVec S200000 32) : FVec Ideal S50000x16 .f32 :=
  pos16 (lin3 (agg100 (lin2 (pos400 (agg400 (lin1 (pos700 (agg700 (lin0 x w1 b1) src dst)) w2 b2) src dst)) w3 b3) src dst) wi bi)

end Cert.Gcn

end
-- ==== Proof.Pay.lean ====
/-
  The kernel side of the dense layer, read entry by entry. Each kernel body computes, from a tile of rows of x, the
  whole of w and the one-row bias, the table x·w + b: the two operands are narrowed (the identity on extended reals),
  multiplied into a zero accumulator, and the bias row is repeated down the rows and added. Entry (p, q) is therefore
  the sum over k of x[p, k] · w[k, q] plus b[0, q]; the last kernel follows this by a maximum with a fixed threshold.

  The one step with content is re-indexing the product's sum: it runs over the contraction shape's indices, a rank-1
  shape of extent K, and is carried to a sum over k < K by the bijection that reads an index's one coordinate; the
  operand positions at output (p, q) and contraction k are (p, k) on the left and (k, q) on the right.
-/
import proofs.«171094_j31095563223209_1_alg».proof.Proof.Spec
import proofs.«171094_j31095563223209_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal

open Facts₀ Facts

/-- A plain [M, K] × [K, N] product's sum over the contraction shape, at output (p, q), is the sum over k < K of
    x[p, k] · w[k, q]. The four hypotheses say where the product reads its operands: the left one at the output's row
    and the contraction coordinate, the right one at the contraction coordinate and the output's column. -/
theorem dot_sum {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (x : (⟨2, ![M, K]⟩ : Shape).Idx → EReal) (w : (⟨2, ![K, N]⟩ : Shape).Idx → EReal) (p : Fin M) (q : Fin N) :
    ∑ c : D.contr.Idx, x (D.lhsIdx (ix2 p q) c) * w (D.rhsIdx (ix2 p q) c) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The bias row, cast to its own shape and repeated down M rows, reads at (p, q) the row's entry (0, q). -/
theorem bias_bcast {M N : Nat} (b : (⟨2, ![1, N]⟩ : Shape).Idx → EReal)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo (⟨2, ![M, N]⟩ : Shape) (shapeCast (⟨2, ![1, N]⟩ : Shape) b hc) hb (ix2 p q) = b (ix2 (0 : Fin 1) q) := by
  rw [shapeCast_self]
  exact broadcastTo_apply b hb (ix2 p q) (ix2 (0 : Fin 1) q) (fun a => match a with
    | ⟨0, _⟩ => by show 0 = if (1 : Nat) = 1 then 0 else _; rw [if_pos rfl]
    | ⟨1, _⟩ => by
        show q.val = if N = 1 then 0 else q.val
        split_ifs with h
        · have := q.isLt; omega
        · rfl)

/-- One entry of a kernel body's table: the narrowed operands multiplied into the zero accumulator, plus the repeated
    bias row, is the dense layer's entry. -/
theorem dense_entry {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (x : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (ht : FTy.bits .bf16 < FTy.bits .f32) (p : Fin M) (q : Fin N) :
    addf (matmul D none (truncf .bf16 x ht) (truncf .bf16 w ht)
        (constant (F := Ideal) ⟨2, ![M, N]⟩ .f32 0x00000000#32))
      (broadcastTo (⟨2, ![M, N]⟩ : Shape) (shapeCast (⟨2, ![1, N]⟩ : Shape) b hc) hb) (ix2 p q)
    = Cert.Gcn.denseAt x w b p q := by
  unfold Cert.Gcn.denseAt
  show _ + _ = _ + _
  refine congrArg₂ (· + ·) ?_ (bias_bcast b hc hb p q)
  refine (Ideal.matmul_constant_zero_apply D none _ _ (ix2 p q)).trans ?_
  exact dot_sum D hr hs hl0 hl1 hr0 hr1 x w p q

/-! ### Where the product `dot_S1000x1433_S1433x700_S1000x700_1_0_0_1_n_n` reads its operands -/

theorem lhs0_0 (i : S1000x700.Idx) (c : dot_S1000x1433_S1433x700_S1000x700_1_0_0_1_n_n.contr.Idx) :
    (dot_S1000x1433_S1433x700_S1000x700_1_0_0_1_n_n.lhsIdx i c 0).val = (i 0).val := by
  unfold DotDims.lhsIdx
  rw [dif_neg (show ¬(0 : Fin S1000x1433.rank) ∈ dot_S1000x1433_S1433x700_S1000x700_1_0_0_1_n_n.lhsBatch by decide), dif_pos (show (0 : Fin S1000x1433.rank) ∈ dot_S1000x1433_S1433x700_S1000x700_1_0_0_1_n_n.lhsNonContracting by decide)]
  rfl
theorem lhs0_1 (i : S1000x700.Idx) (c : dot_S1000x1433_S1433x700_S1000x700_1_0_0_1_n_n.contr.Idx) :
    (dot_S1000x1433_S1433x700_S1000x700_1_0_0_1_n_n.lhsIdx i c 1).val = (c ⟨0, by decide⟩).val :=
  dot_S1000x1433_S1433x700_S1000x700_1_0_0_1_n_n.lhsIdx_val_of_single rfl i c
theorem rhs0_0 (i : S1000x700.Idx) (c : dot_S1000x1433_S1433x700_S1000x700_1_0_0_1_n_n.contr.Idx) :
    (dot_S1000x1433_S1433x700_S1000x700_1_0_0_1_n_n.rhsIdx i c 0).val = (c ⟨0, by decide⟩).val :=
  dot_S1000x1433_S1433x700_S1000x700_1_0_0_1_n_n.rhsIdx_val_of_single rfl i c
theorem rhs0_1 (i : S1000x700.Idx) (c : dot_S1000x1433_S1433x700_S1000x700_1_0_0_1_n_n.contr.Idx) :
    (dot_S1000x1433_S1433x700_S1000x700_1_0_0_1_n_n.rhsIdx i c 1).val = (i 1).val := by
  unfold DotDims.rhsIdx
  rw [dif_neg (show ¬(1 : Fin S1433x700.rank) ∈ dot_S1000x1433_S1433x700_S1000x700_1_0_0_1_n_n.rhsBatch by decide), dif_pos (show (1 : Fin S1433x700.rank) ∈ dot_S1000x1433_S1433x700_S1000x700_1_0_0_1_n_n.rhsNonContracting by decide)]
  rfl

/-! ### Where the product `dot_S1000x700_S700x400_S1000x400_1_0_0_1_n_n` reads its operands -/

theorem lhs1_0 (i : S1000x400.Idx) (c : dot_S1000x700_S700x400_S1000x400_1_0_0_1_n_n.contr.Idx) :
    (dot_S1000x700_S700x400_S1000x400_1_0_0_1_n_n.lhsIdx i c 0).val = (i 0).val := by
  unfold DotDims.lhsIdx
  rw [dif_neg (show ¬(0 : Fin S1000x700.rank) ∈ dot_S1000x700_S700x400_S1000x400_1_0_0_1_n_n.lhsBatch by decide), dif_pos (show (0 : Fin S1000x700.rank) ∈ dot_S1000x700_S700x400_S1000x400_1_0_0_1_n_n.lhsNonContracting by decide)]
  rfl
theorem lhs1_1 (i : S1000x400.Idx) (c : dot_S1000x700_S700x400_S1000x400_1_0_0_1_n_n.contr.Idx) :
    (dot_S1000x700_S700x400_S1000x400_1_0_0_1_n_n.lhsIdx i c 1).val = (c ⟨0, by decide⟩).val :=
  dot_S1000x700_S700x400_S1000x400_1_0_0_1_n_n.lhsIdx_val_of_single rfl i c
theorem rhs1_0 (i : S1000x400.Idx) (c : dot_S1000x700_S700x400_S1000x400_1_0_0_1_n_n.contr.Idx) :
    (dot_S1000x700_S700x400_S1000x400_1_0_0_1_n_n.rhsIdx i c 0).val = (c ⟨0, by decide⟩).val :=
  dot_S1000x700_S700x400_S1000x400_1_0_0_1_n_n.rhsIdx_val_of_single rfl i c
theorem rhs1_1 (i : S1000x400.Idx) (c : dot_S1000x700_S700x400_S1000x400_1_0_0_1_n_n.contr.Idx) :
    (dot_S1000x700_S700x400_S1000x400_1_0_0_1_n_n.rhsIdx i c 1).val = (i 1).val := by
  unfold DotDims.rhsIdx
  rw [dif_neg (show ¬(1 : Fin S700x400.rank) ∈ dot_S1000x700_S700x400_S1000x400_1_0_0_1_n_n.rhsBatch by decide), dif_pos (show (1 : Fin S700x400.rank) ∈ dot_S1000x700_S700x400_S1000x400_1_0_0_1_n_n.rhsNonContracting by decide)]
  rfl

/-! ### Where the product `dot_S1000x400_S400x100_S1000x100_1_0_0_1_n_n` reads its operands -/

theorem lhs2_0 (i : S1000x100.Idx) (c : dot_S1000x400_S400x100_S1000x100_1_0_0_1_n_n.contr.Idx) :
    (dot_S1000x400_S400x100_S1000x100_1_0_0_1_n_n.lhsIdx i c 0).val = (i 0).val := by
  unfold DotDims.lhsIdx
  rw [dif_neg (show ¬(0 : Fin S1000x400.rank) ∈ dot_S1000x400_S400x100_S1000x100_1_0_0_1_n_n.lhsBatch by decide), dif_pos (show (0 : Fin S1000x400.rank) ∈ dot_S1000x400_S400x100_S1000x100_1_0_0_1_n_n.lhsNonContracting by decide)]
  rfl
theorem lhs2_1 (i : S1000x100.Idx) (c : dot_S1000x400_S400x100_S1000x100_1_0_0_1_n_n.contr.Idx) :
    (dot_S1000x400_S400x100_S1000x100_1_0_0_1_n_n.lhsIdx i c 1).val = (c ⟨0, by decide⟩).val :=
  dot_S1000x400_S400x100_S1000x100_1_0_0_1_n_n.lhsIdx_val_of_single rfl i c
theorem rhs2_0 (i : S1000x100.Idx) (c : dot_S1000x400_S400x100_S1000x100_1_0_0_1_n_n.contr.Idx) :
    (dot_S1000x400_S400x100_S1000x100_1_0_0_1_n_n.rhsIdx i c 0).val = (c ⟨0, by decide⟩).val :=
  dot_S1000x400_S400x100_S1000x100_1_0_0_1_n_n.rhsIdx_val_of_single rfl i c
theorem rhs2_1 (i : S1000x100.Idx) (c : dot_S1000x400_S400x100_S1000x100_1_0_0_1_n_n.contr.Idx) :
    (dot_S1000x400_S400x100_S1000x100_1_0_0_1_n_n.rhsIdx i c 1).val = (i 1).val := by
  unfold DotDims.rhsIdx
  rw [dif_neg (show ¬(1 : Fin S400x100.rank) ∈ dot_S1000x400_S400x100_S1000x100_1_0_0_1_n_n.rhsBatch by decide), dif_pos (show (1 : Fin S400x100.rank) ∈ dot_S1000x400_S400x100_S1000x100_1_0_0_1_n_n.rhsNonContracting by decide)]
  rfl

/-! ### Where the product `dot_S1000x100_S100x16_S1000x16_1_0_0_1_n_n` reads its operands -/

theorem lhs3_0 (i : S1000x16.Idx) (c : dot_S1000x100_S100x16_S1000x16_1_0_0_1_n_n.contr.Idx) :
    (dot_S1000x100_S100x16_S1000x16_1_0_0_1_n_n.lhsIdx i c 0).val = (i 0).val := by
  unfold DotDims.lhsIdx
  rw [dif_neg (show ¬(0 : Fin S1000x100.rank) ∈ dot_S1000x100_S100x16_S1000x16_1_0_0_1_n_n.lhsBatch by decide), dif_pos (show (0 : Fin S1000x100.rank) ∈ dot_S1000x100_S100x16_S1000x16_1_0_0_1_n_n.lhsNonContracting by decide)]
  rfl
theorem lhs3_1 (i : S1000x16.Idx) (c : dot_S1000x100_S100x16_S1000x16_1_0_0_1_n_n.contr.Idx) :
    (dot_S1000x100_S100x16_S1000x16_1_0_0_1_n_n.lhsIdx i c 1).val = (c ⟨0, by decide⟩).val :=
  dot_S1000x100_S100x16_S1000x16_1_0_0_1_n_n.lhsIdx_val_of_single rfl i c
theorem rhs3_0 (i : S1000x16.Idx) (c : dot_S1000x100_S100x16_S1000x16_1_0_0_1_n_n.contr.Idx) :
    (dot_S1000x100_S100x16_S1000x16_1_0_0_1_n_n.rhsIdx i c 0).val = (c ⟨0, by decide⟩).val :=
  dot_S1000x100_S100x16_S1000x16_1_0_0_1_n_n.rhsIdx_val_of_single rfl i c
theorem rhs3_1 (i : S1000x16.Idx) (c : dot_S1000x100_S100x16_S1000x16_1_0_0_1_n_n.contr.Idx) :
    (dot_S1000x100_S100x16_S1000x16_1_0_0_1_n_n.rhsIdx i c 1).val = (i 1).val := by
  unfold DotDims.rhsIdx
  rw [dif_neg (show ¬(1 : Fin S100x16.rank) ∈ dot_S1000x100_S100x16_S1000x16_1_0_0_1_n_n.rhsBatch by decide), dif_pos (show (1 : Fin S100x16.rank) ∈ dot_S1000x100_S100x16_S1000x16_1_0_0_1_n_n.rhsNonContracting by decide)]
  rfl

/-! ### The four kernel bodies, and the bias laid as a row -/

theorem pay0_apply (x0 : Vec Ideal S1000x1433 .f32) (x1 : Vec Ideal S1433x700 .f32) (x2 : Vec Ideal S1x700 .f32) (p : Fin 1000) (q : Fin 700) :
    Gen.k0_pay1 (F := Ideal) x0 x1 x2 (ix2 p q) = Cert.Gcn.denseAt x0 x1 x2 p q := by
  unfold Gen.k0_pay1
  exact dense_entry dot_S1000x1433_S1433x700_S1000x700_1_0_0_1_n_n rfl rfl lhs0_0 lhs0_1 rhs0_0 rhs0_1 x0 x1 x2 shapeCasts_S1x700_S1x700 broadcasts_S1x700_S1000x700 bitsLt_bf16_f32 p q

theorem pay1_apply (x0 : Vec Ideal S1000x700 .f32) (x1 : Vec Ideal S700x400 .f32) (x2 : Vec Ideal S1x400 .f32) (p : Fin 1000) (q : Fin 400) :
    Gen.k1_pay1 (F := Ideal) x0 x1 x2 (ix2 p q) = Cert.Gcn.denseAt x0 x1 x2 p q := by
  unfold Gen.k1_pay1
  exact (dense_entry dot_S1000x700_S700x400_S1000x400_1_0_0_1_n_n rfl rfl lhs1_0 lhs1_1 rhs1_0 rhs1_1 (shapeCast S1000x700 x0 shapeCasts_S1000x700_S1000x700) x1 x2 shapeCasts_S1x400_S1x400 broadcasts_S1x400_S1000x400 bitsLt_bf16_f32 p q).trans
    (congrArg (fun y => Cert.Gcn.denseAt y x1 x2 p q) (shapeCast_self x0 shapeCasts_S1000x700_S1000x700))

theorem pay2_apply (x0 : Vec Ideal S1000x400 .f32) (x1 : Vec Ideal S400x100 .f32) (x2 : Vec Ideal S1x100 .f32) (p : Fin 1000) (q : Fin 100) :
    Gen.k2_pay1 (F := Ideal) x0 x1 x2 (ix2 p q) = Cert.Gcn.denseAt x0 x1 x2 p q := by
  unfold Gen.k2_pay1
  exact (dense_entry dot_S1000x400_S400x100_S1000x100_1_0_0_1_n_n rfl rfl lhs2_0 lhs2_1 rhs2_0 rhs2_1 (shapeCast S1000x400 x0 shapeCasts_S1000x400_S1000x400) x1 x2 shapeCasts_S1x100_S1x100 broadcasts_S1x100_S1000x100 bitsLt_bf16_f32 p q).trans
    (congrArg (fun y => Cert.Gcn.denseAt y x1 x2 p q) (shapeCast_self x0 shapeCasts_S1000x400_S1000x400))

theorem pay3_apply (x0 : Vec Ideal S1000x100 .f32) (x1 : Vec Ideal S100x16 .f32) (x2 : Vec Ideal S1x16 .f32) (p : Fin 1000) (q : Fin 16) :
    Gen.k3_pay1 (F := Ideal) x0 x1 x2 (ix2 p q) = max (Cert.Gcn.denseAt x0 x1 x2 p q) (Ideal.ofBits .f32 0x00000000#32) := by
  unfold Gen.k3_pay1
  exact congrArg (fun t => max t (Ideal.ofBits .f32 0x00000000#32))
    ((dense_entry dot_S1000x100_S100x16_S1000x16_1_0_0_1_n_n rfl rfl lhs3_0 lhs3_1 rhs3_0 rhs3_1 (shapeCast S1000x100 x0 shapeCasts_S1000x100_S1000x100) x1 x2 shapeCasts_S1x16_S1x16 broadcasts_S1x16_S1000x16 bitsLt_bf16_f32 p q).trans
      (congrArg (fun y => Cert.Gcn.denseAt y x1 x2 p q) (shapeCast_self x0 shapeCasts_S1000x100_S1000x100)))

/-- A vector [N] laid as a one-row table [1, N] reads at (0, q) the vector's entry q. -/
theorem bias_row {N : Nat} (b : (⟨1, ![N]⟩ : Shape).Idx → EReal) (h : (⟨1, ![N]⟩ : Shape).ShapeCasts ⟨2, ![1, N]⟩) (q : Fin N) :
    shapeCast (⟨2, ![1, N]⟩ : Shape) b h (ix2 (0 : Fin 1) q) = b (ix1 q) :=
  shapeCast_a_1a_apply b h 0 q

end Cert.KernelIdeal.Pay

end
-- ==== Proof.RefDense.lean ====
/-
  The reference side of the dense layer, as a whole table. The reference computes x·w by one product over the
  contraction axis, lays its bias vector [N] as a one-row table [1, N], repeats that row down the M rows, and adds;
  its last layer is followed by a maximum with a constant table. Entry (p, q) is therefore the sum over k of
  x[p, k] · w[k, q] plus b[q], which is the specification's entry once the one-row bias b2 is tied to the vector b by
  b2[0, q] = b[q].

  As on the kernel side, the one step with content is re-indexing the product's sum from the contraction shape's
  indices (rank 1, extent K) to k < K; the two repeats are read at an index by sending each unit axis to 0.
-/
import proofs.«171094_j31095563223209_1_alg».proof.Proof.Spec
import proofs.«171094_j31095563223209_1_alg».proof.ReferenceIdeal
import proofs.«171094_j31095563223209_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Dense

open Idealize.ShloMosaic Idealize.ShloMosaic.ValueIdx Cert.ReferenceIdeal Cert.ReferenceIdeal.Gen

/-- A plain [M, K] × [K, N] product's sum over the contraction shape, at output (p, q), is the sum over k < K of
    x[p, k] · w[k, q]. The four hypotheses say where the product reads its operands: the left one at the output's row
    and the contraction coordinate, the right one at the contraction coordinate and the output's column. -/
theorem dot_sum {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (x : (⟨2, ![M, K]⟩ : Shape).Idx → EReal) (w : (⟨2, ![K, N]⟩ : Shape).Idx → EReal) (p : Fin M) (q : Fin N) :
    ∑ c : D.contr.Idx, x (D.lhsIdx (ix2 p q) c) * w (D.rhsIdx (ix2 p q) c) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The bias vector laid as a one-row table and repeated down M rows reads at (p, q) the vector's entry q. -/
theorem bias_table {M N : Nat} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim (⟨2, ![M, N]⟩ : Shape) ![0, 1] h2 (broadcastInDim (⟨2, ![1, N]⟩ : Shape) ![1] h1 b) (ix2 p q) = b (ix1 q) := by
  refine (broadcastInDim_apply _ h2 _ (ix2 p q) (ix2 (0 : Fin 1) q) (fun a => match a with
    | ⟨0, _⟩ => by show 0 = if (1 : Nat) = 1 then 0 else _; rw [if_pos rfl]
    | ⟨1, _⟩ => by
        show q.val = if N = 1 then 0 else q.val
        split_ifs with h
        · have := q.isLt; omega
        · rfl)).trans ?_
  exact broadcastInDim_apply _ h1 b (ix2 (0 : Fin 1) q) (ix1 q) (fun a => match a with
    | ⟨0, _⟩ => by
        show q.val = if N = 1 then 0 else q.val
        split_ifs with h
        · have := q.isLt; omega
        · rfl)

/-- The reference's dense layer — the product plus the repeated bias — is the specification's table, the one-row bias
    `b2` agreeing with the bias vector `b` entry by entry. -/
theorem dense_table {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (x : FVec Ideal ⟨2, ![M, K]⟩ .f32) (w : FVec Ideal ⟨2, ![K, N]⟩ .f32) (b : FVec Ideal ⟨1, ![N]⟩ .f32)
    (b2 : (⟨2, ![1, N]⟩ : Shape).Idx → EReal) (hb : ∀ q : Fin N, b2 (ix2 (0 : Fin 1) q) = b (ix1 q))
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) D none x w)
      (broadcastInDim (⟨2, ![M, N]⟩ : Shape) ![0, 1] h2 (broadcastInDim (⟨2, ![1, N]⟩ : Shape) ![1] h1 b))
    = Cert.Gcn.dense x w b2 := by
  funext i
  obtain ⟨p, q, rfl⟩ : ∃ (p : Fin M) (q : Fin N), i = ix2 p q := ⟨i 0, i 1, eq_ix2 i⟩
  rw [Cert.Gcn.dense_ix2]
  unfold Cert.Gcn.denseAt
  show _ + _ = _ + _
  refine congrArg₂ (· + ·) ?_ ((bias_table b h1 h2 p q).trans (hb q).symm)
  refine (Ideal.dotGeneral_apply D none .single x w (ix2 p q)).trans ?_
  exact dot_sum D hr hs hl0 hl1 hr0 hr1 x w p q

/-! ### Where the product `dot_S50000x1433_S1433x700_S50000x700_1_0_0_1_n_n` reads its operands -/

theorem lhs0_0 (i : S50000x700.Idx) (c : dot_S50000x1433_S1433x700_S50000x700_1_0_0_1_n_n.contr.Idx) :
    (dot_S50000x1433_S1433x700_S50000x700_1_0_0_1_n_n.lhsIdx i c 0).val = (i 0).val := by
  unfold DotDims.lhsIdx
  rw [dif_neg (show ¬(0 : Fin S50000x1433.rank) ∈ dot_S50000x1433_S1433x700_S50000x700_1_0_0_1_n_n.lhsBatch by decide), dif_pos (show (0 : Fin S50000x1433.rank) ∈ dot_S50000x1433_S1433x700_S50000x700_1_0_0_1_n_n.lhsNonContracting by decide)]
  rfl
theorem lhs0_1 (i : S50000x700.Idx) (c : dot_S50000x1433_S1433x700_S50000x700_1_0_0_1_n_n.contr.Idx) :
    (dot_S50000x1433_S1433x700_S50000x700_1_0_0_1_n_n.lhsIdx i c 1).val = (c ⟨0, by decide⟩).val :=
  dot_S50000x1433_S1433x700_S50000x700_1_0_0_1_n_n.lhsIdx_val_of_single rfl i c
theorem rhs0_0 (i : S50000x700.Idx) (c : dot_S50000x1433_S1433x700_S50000x700_1_0_0_1_n_n.contr.Idx) :
    (dot_S50000x1433_S1433x700_S50000x700_1_0_0_1_n_n.rhsIdx i c 0).val = (c ⟨0, by decide⟩).val :=
  dot_S50000x1433_S1433x700_S50000x700_1_0_0_1_n_n.rhsIdx_val_of_single rfl i c
theorem rhs0_1 (i : S50000x700.Idx) (c : dot_S50000x1433_S1433x700_S50000x700_1_0_0_1_n_n.contr.Idx) :
    (dot_S50000x1433_S1433x700_S50000x700_1_0_0_1_n_n.rhsIdx i c 1).val = (i 1).val := by
  unfold DotDims.rhsIdx
  rw [dif_neg (show ¬(1 : Fin S1433x700.rank) ∈ dot_S50000x1433_S1433x700_S50000x700_1_0_0_1_n_n.rhsBatch by decide), dif_pos (show (1 : Fin S1433x700.rank) ∈ dot_S50000x1433_S1433x700_S50000x700_1_0_0_1_n_n.rhsNonContracting by decide)]
  rfl

/-! ### Where the product `dot_S50000x700_S700x400_S50000x400_1_0_0_1_n_n` reads its operands -/

theorem lhs1_0 (i : S50000x400.Idx) (c : dot_S50000x700_S700x400_S50000x400_1_0_0_1_n_n.contr.Idx) :
    (dot_S50000x700_S700x400_S50000x400_1_0_0_1_n_n.lhsIdx i c 0).val = (i 0).val := by
  unfold DotDims.lhsIdx
  rw [dif_neg (show ¬(0 : Fin S50000x700.rank) ∈ dot_S50000x700_S700x400_S50000x400_1_0_0_1_n_n.lhsBatch by decide), dif_pos (show (0 : Fin S50000x700.rank) ∈ dot_S50000x700_S700x400_S50000x400_1_0_0_1_n_n.lhsNonContracting by decide)]
  rfl
theorem lhs1_1 (i : S50000x400.Idx) (c : dot_S50000x700_S700x400_S50000x400_1_0_0_1_n_n.contr.Idx) :
    (dot_S50000x700_S700x400_S50000x400_1_0_0_1_n_n.lhsIdx i c 1).val = (c ⟨0, by decide⟩).val :=
  dot_S50000x700_S700x400_S50000x400_1_0_0_1_n_n.lhsIdx_val_of_single rfl i c
theorem rhs1_0 (i : S50000x400.Idx) (c : dot_S50000x700_S700x400_S50000x400_1_0_0_1_n_n.contr.Idx) :
    (dot_S50000x700_S700x400_S50000x400_1_0_0_1_n_n.rhsIdx i c 0).val = (c ⟨0, by decide⟩).val :=
  dot_S50000x700_S700x400_S50000x400_1_0_0_1_n_n.rhsIdx_val_of_single rfl i c
theorem rhs1_1 (i : S50000x400.Idx) (c : dot_S50000x700_S700x400_S50000x400_1_0_0_1_n_n.contr.Idx) :
    (dot_S50000x700_S700x400_S50000x400_1_0_0_1_n_n.rhsIdx i c 1).val = (i 1).val := by
  unfold DotDims.rhsIdx
  rw [dif_neg (show ¬(1 : Fin S700x400.rank) ∈ dot_S50000x700_S700x400_S50000x400_1_0_0_1_n_n.rhsBatch by decide), dif_pos (show (1 : Fin S700x400.rank) ∈ dot_S50000x700_S700x400_S50000x400_1_0_0_1_n_n.rhsNonContracting by decide)]
  rfl

/-! ### Where the product `dot_S50000x400_S400x100_S50000x100_1_0_0_1_n_n` reads its operands -/

theorem lhs2_0 (i : S50000x100.Idx) (c : dot_S50000x400_S400x100_S50000x100_1_0_0_1_n_n.contr.Idx) :
    (dot_S50000x400_S400x100_S50000x100_1_0_0_1_n_n.lhsIdx i c 0).val = (i 0).val := by
  unfold DotDims.lhsIdx
  rw [dif_neg (show ¬(0 : Fin S50000x400.rank) ∈ dot_S50000x400_S400x100_S50000x100_1_0_0_1_n_n.lhsBatch by decide), dif_pos (show (0 : Fin S50000x400.rank) ∈ dot_S50000x400_S400x100_S50000x100_1_0_0_1_n_n.lhsNonContracting by decide)]
  rfl
theorem lhs2_1 (i : S50000x100.Idx) (c : dot_S50000x400_S400x100_S50000x100_1_0_0_1_n_n.contr.Idx) :
    (dot_S50000x400_S400x100_S50000x100_1_0_0_1_n_n.lhsIdx i c 1).val = (c ⟨0, by decide⟩).val :=
  dot_S50000x400_S400x100_S50000x100_1_0_0_1_n_n.lhsIdx_val_of_single rfl i c
theorem rhs2_0 (i : S50000x100.Idx) (c : dot_S50000x400_S400x100_S50000x100_1_0_0_1_n_n.contr.Idx) :
    (dot_S50000x400_S400x100_S50000x100_1_0_0_1_n_n.rhsIdx i c 0).val = (c ⟨0, by decide⟩).val :=
  dot_S50000x400_S400x100_S50000x100_1_0_0_1_n_n.rhsIdx_val_of_single rfl i c
theorem rhs2_1 (i : S50000x100.Idx) (c : dot_S50000x400_S400x100_S50000x100_1_0_0_1_n_n.contr.Idx) :
    (dot_S50000x400_S400x100_S50000x100_1_0_0_1_n_n.rhsIdx i c 1).val = (i 1).val := by
  unfold DotDims.rhsIdx
  rw [dif_neg (show ¬(1 : Fin S400x100.rank) ∈ dot_S50000x400_S400x100_S50000x100_1_0_0_1_n_n.rhsBatch by decide), dif_pos (show (1 : Fin S400x100.rank) ∈ dot_S50000x400_S400x100_S50000x100_1_0_0_1_n_n.rhsNonContracting by decide)]
  rfl

/-! ### Where the product `dot_S50000x100_S100x16_S50000x16_1_0_0_1_n_n` reads its operands -/

theorem lhs3_0 (i : S50000x16.Idx) (c : dot_S50000x100_S100x16_S50000x16_1_0_0_1_n_n.contr.Idx) :
    (dot_S50000x100_S100x16_S50000x16_1_0_0_1_n_n.lhsIdx i c 0).val = (i 0).val := by
  unfold DotDims.lhsIdx
  rw [dif_neg (show ¬(0 : Fin S50000x100.rank) ∈ dot_S50000x100_S100x16_S50000x16_1_0_0_1_n_n.lhsBatch by decide), dif_pos (show (0 : Fin S50000x100.rank) ∈ dot_S50000x100_S100x16_S50000x16_1_0_0_1_n_n.lhsNonContracting by decide)]
  rfl
theorem lhs3_1 (i : S50000x16.Idx) (c : dot_S50000x100_S100x16_S50000x16_1_0_0_1_n_n.contr.Idx) :
    (dot_S50000x100_S100x16_S50000x16_1_0_0_1_n_n.lhsIdx i c 1).val = (c ⟨0, by decide⟩).val :=
  dot_S50000x100_S100x16_S50000x16_1_0_0_1_n_n.lhsIdx_val_of_single rfl i c
theorem rhs3_0 (i : S50000x16.Idx) (c : dot_S50000x100_S100x16_S50000x16_1_0_0_1_n_n.contr.Idx) :
    (dot_S50000x100_S100x16_S50000x16_1_0_0_1_n_n.rhsIdx i c 0).val = (c ⟨0, by decide⟩).val :=
  dot_S50000x100_S100x16_S50000x16_1_0_0_1_n_n.rhsIdx_val_of_single rfl i c
theorem rhs3_1 (i : S50000x16.Idx) (c : dot_S50000x100_S100x16_S50000x16_1_0_0_1_n_n.contr.Idx) :
    (dot_S50000x100_S100x16_S50000x16_1_0_0_1_n_n.rhsIdx i c 1).val = (i 1).val := by
  unfold DotDims.rhsIdx
  rw [dif_neg (show ¬(1 : Fin S100x16.rank) ∈ dot_S50000x100_S100x16_S50000x16_1_0_0_1_n_n.rhsBatch by decide), dif_pos (show (1 : Fin S100x16.rank) ∈ dot_S50000x100_S100x16_S50000x16_1_0_0_1_n_n.rhsNonContracting by decide)]
  rfl

/-! ### The four layers -/

theorem lin0_eq (x : FVec Ideal S50000x1433 .f32) (w : FVec Ideal S1433x700 .f32) (b : FVec Ideal S700 .f32)
    (b2 : (⟨2, ![1, 700]⟩ : Shape).Idx → EReal) (hb : ∀ q : Fin 700, b2 (ix2 (0 : Fin 1) q) = b (ix1 q)) :
    addf (Host.dotGeneral (F := Ideal) dot_S50000x1433_S1433x700_S50000x700_1_0_0_1_n_n none x w)
      (broadcastInDim S50000x700 ![0, 1] bcast_S1x700_S50000x700_0_1 (broadcastInDim S1x700 ![1] bcast_S700_S1x700_1 b))
    = Cert.Gcn.dense x w b2 :=
  dense_table dot_S50000x1433_S1433x700_S50000x700_1_0_0_1_n_n rfl rfl lhs0_0 lhs0_1 rhs0_0 rhs0_1 x w b b2 hb bcast_S700_S1x700_1 bcast_S1x700_S50000x700_0_1

theorem lin1_eq (x : FVec Ideal S50000x700 .f32) (w : FVec Ideal S700x400 .f32) (b : FVec Ideal S400 .f32)
    (b2 : (⟨2, ![1, 400]⟩ : Shape).Idx → EReal) (hb : ∀ q : Fin 400, b2 (ix2 (0 : Fin 1) q) = b (ix1 q)) :
    addf (Host.dotGeneral (F := Ideal) dot_S50000x700_S700x400_S50000x400_1_0_0_1_n_n none x w)
      (broadcastInDim S50000x400 ![0, 1] bcast_S1x400_S50000x400_0_1 (broadcastInDim S1x400 ![1] bcast_S400_S1x400_1 b))
    = Cert.Gcn.dense x w b2 :=
  dense_table dot_S50000x700_S700x400_S50000x400_1_0_0_1_n_n rfl rfl lhs1_0 lhs1_1 rhs1_0 rhs1_1 x w b b2 hb bcast_S400_S1x400_1 bcast_S1x400_S50000x400_0_1

theorem lin2_eq (x : FVec Ideal S50000x400 .f32) (w : FVec Ideal S400x100 .f32) (b : FVec Ideal S100 .f32)
    (b2 : (⟨2, ![1, 100]⟩ : Shape).Idx → EReal) (hb : ∀ q : Fin 100, b2 (ix2 (0 : Fin 1) q) = b (ix1 q)) :
    addf (Host.dotGeneral (F := Ideal) dot_S50000x400_S400x100_S50000x100_1_0_0_1_n_n none x w)
      (broadcastInDim S50000x100 ![0, 1] bcast_S1x100_S50000x100_0_1 (broadcastInDim S1x100 ![1] bcast_S100_S1x100_1 b))
    = Cert.Gcn.dense x w b2 :=
  dense_table dot_S50000x400_S400x100_S50000x100_1_0_0_1_n_n rfl rfl lhs2_0 lhs2_1 rhs2_0 rhs2_1 x w b b2 hb bcast_S100_S1x100_1 bcast_S1x100_S50000x100_0_1

theorem lin3_relu_eq (x : FVec Ideal S50000x100 .f32) (w : FVec Ideal S100x16 .f32) (b : FVec Ideal S16 .f32)
    (b2 : (⟨2, ![1, 16]⟩ : Shape).Idx → EReal) (hb : ∀ q : Fin 16, b2 (ix2 (0 : Fin 1) q) = b (ix1 q)) :
    maximumf (addf (Host.dotGeneral (F := Ideal) dot_S50000x100_S100x16_S50000x16_1_0_0_1_n_n none x w)
        (broadcastInDim S50000x16 ![0, 1] bcast_S1x16_S50000x16_0_1 (broadcastInDim S1x16 ![1] bcast_S16_S1x16_1 b)))
      (broadcastInDim S50000x16 ![] bcast_S_S50000x16 (constant (F := Ideal) S_ .f32 0x00000000#32))
    = Cert.Gcn.denseMax (Ideal.ofBits .f32 0x00000000#32) x w b2 := by
  funext i
  obtain ⟨p, q, rfl⟩ : ∃ (p : Fin 50000) (q : Fin 16), i = ix2 p q := ⟨i 0, i 1, eq_ix2 i⟩
  refine (maximumf_apply _ _ (ix2 p q)).trans ?_
  refine congrArg₂ max (congrFun (dense_table dot_S50000x100_S100x16_S50000x16_1_0_0_1_n_n rfl rfl lhs3_0 lhs3_1 rhs3_0 rhs3_1 x w b b2 hb bcast_S16_S1x16_1 bcast_S1x16_S50000x16_0_1) (ix2 p q)) ?_
  refine (broadcastInDim_apply _ bcast_S_S50000x16 _ (ix2 p q) ix0 (fun a => a.elim0)).trans ?_
  exact constant_apply _ _

end Cert.ReferenceIdeal.Dense

end
-- ==== Proof.Stretch.lean ====
/-
  The host operations between the kernel program's pipelined regions, one stretch at a time and from ANY buffer
  contents `W`: which buffers a stretch writes (every other buffer keeps its contents), and what it leaves in the
  buffers the next region reads — the bias vector laid as a one-row table, the aggregation over the graph's edges of
  the previous region's output, the positive part of that. The aggregation and the positive part are stated as the
  network's own functions (the two programs apply the same host operations), so nothing here opens them.
-/
import proofs.«171094_j31095563223209_1_alg».proof.Proof.Net
import proofs.«171094_j31095563223209_1_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo

variable (W : Valuation τ sig (Elt Ideal))

/-! ## What each stretch writes, and what it leaves alone -/

/-- The buffers the operations of stretch 0 write. -/
abbrev wr0 : List (Ref sig .tc) := [main_v0]
theorem wr0_sub : (hostOps0 : List (HloOp τ sig (Elt Ideal))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 0 does not write keeps its contents. -/
theorem keep0 (r : Ref sig .tc) (h : r ∉ wr0) : StableHlo.after (hostOps0 (F := Ideal)) W (Proc.devRef .tc r) = W (Proc.devRef .tc r) :=
  StableHlo.after_of_writes_sub hostOps0 _ wr0_sub h

/-- The buffers the operations of stretch 1 write. -/
abbrev wr1 : List (Ref sig .tc) := [main_c, main_v2, main_v3, main_c_0, main_v4, main_v5, main_v6, main_v7, main_v8, main_cst, main_v9, main_v10, main_v11]
theorem wr1_sub : (hostOps1 : List (HloOp τ sig (Elt Ideal))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not write keeps its contents. -/
theorem keep1 (r : Ref sig .tc) (h : r ∉ wr1) : StableHlo.after (hostOps1 (F := Ideal)) W (Proc.devRef .tc r) = W (Proc.devRef .tc r) :=
  StableHlo.after_of_writes_sub hostOps1 _ wr1_sub h

/-- The buffers the operations of stretch 1_1 write. -/
abbrev wr1_1 : List (Ref sig .tc) := [main_call0_cst, main_call0_v0, main_v12]
theorem wr1_1_sub : (hostOps1_1 : List (HloOp τ sig (Elt Ideal))).Forall fun op => op.writes ⊆ (wr1_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1_1 does not write keeps its contents. -/
theorem keep1_1 (r : Ref sig .tc) (h : r ∉ wr1_1) : StableHlo.after (hostOps1_1 (F := Ideal)) W (Proc.devRef .tc r) = W (Proc.devRef .tc r) :=
  StableHlo.after_of_writes_sub hostOps1_1 _ wr1_1_sub h

/-- The buffers the operations of stretch 1_2 write. -/
abbrev wr1_2 : List (Ref sig .tc) := [main_v13]
theorem wr1_2_sub : (hostOps1_2 : List (HloOp τ sig (Elt Ideal))).Forall fun op => op.writes ⊆ (wr1_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1_2 does not write keeps its contents. -/
theorem keep1_2 (r : Ref sig .tc) (h : r ∉ wr1_2) : StableHlo.after (hostOps1_2 (F := Ideal)) W (Proc.devRef .tc r) = W (Proc.devRef .tc r) :=
  StableHlo.after_of_writes_sub hostOps1_2 _ wr1_2_sub h

/-- The buffers the operations of stretch 2 write. -/
abbrev wr2 : List (Ref sig .tc) := [main_c_1, main_v15, main_v16, main_c_2, main_v17, main_v18, main_v19, main_v20, main_v21, main_cst_3, main_v22, main_v23, main_v24]
theorem wr2_sub : (hostOps2 : List (HloOp τ sig (Elt Ideal))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not write keeps its contents. -/
theorem keep2 (r : Ref sig .tc) (h : r ∉ wr2) : StableHlo.after (hostOps2 (F := Ideal)) W (Proc.devRef .tc r) = W (Proc.devRef .tc r) :=
  StableHlo.after_of_writes_sub hostOps2 _ wr2_sub h

/-- The buffers the operations of stretch 2_1 write. -/
abbrev wr2_1 : List (Ref sig .tc) := [main_call1_cst, main_call1_v0, main_v25]
theorem wr2_1_sub : (hostOps2_1 : List (HloOp τ sig (Elt Ideal))).Forall fun op => op.writes ⊆ (wr2_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2_1 does not write keeps its contents. -/
theorem keep2_1 (r : Ref sig .tc) (h : r ∉ wr2_1) : StableHlo.after (hostOps2_1 (F := Ideal)) W (Proc.devRef .tc r) = W (Proc.devRef .tc r) :=
  StableHlo.after_of_writes_sub hostOps2_1 _ wr2_1_sub h

/-- The buffers the operations of stretch 2_2 write. -/
abbrev wr2_2 : List (Ref sig .tc) := [main_v26]
theorem wr2_2_sub : (hostOps2_2 : List (HloOp τ sig (Elt Ideal))).Forall fun op => op.writes ⊆ (wr2_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2_2 does not write keeps its contents. -/
theorem keep2_2 (r : Ref sig .tc) (h : r ∉ wr2_2) : StableHlo.after (hostOps2_2 (F := Ideal)) W (Proc.devRef .tc r) = W (Proc.devRef .tc r) :=
  StableHlo.after_of_writes_sub hostOps2_2 _ wr2_2_sub h

/-- The buffers the operations of stretch 3 write. -/
abbrev wr3 : List (Ref sig .tc) := [main_c_4, main_v28, main_v29, main_c_5, main_v30, main_v31, main_v32, main_v33, main_v34, main_cst_6, main_v35, main_v36, main_v37, main_v38]
theorem wr3_sub : (hostOps3 : List (HloOp τ sig (Elt Ideal))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not write keeps its contents. -/
theorem keep3 (r : Ref sig .tc) (h : r ∉ wr3) : StableHlo.after (hostOps3 (F := Ideal)) W (Proc.devRef .tc r) = W (Proc.devRef .tc r) :=
  StableHlo.after_of_writes_sub hostOps3 _ wr3_sub h

/-! ## What each stretch leaves in the buffers a region reads -/

/-- The first layer's bias, laid as a one-row table. -/
theorem res0 : StableHlo.after (hostOps0 (F := Ideal)) W (Proc.devRef .tc main_v0)
    = shapeCast S1x700 (W (Proc.devRef .tc main_arg2)) shapeCasts_S700_S1x700 := by
  after_results; rfl

/-- The aggregation of the first region's output over the edges. -/
theorem res1 : StableHlo.after (hostOps1 (F := Ideal)) W (Proc.devRef .tc main_v11)
    = Cert.Gcn.agg700 (W (Proc.devRef .tc main_v1)) (W (Proc.devRef .tc main_arg9)) (W (Proc.devRef .tc main_arg10)) := by
  after_results; rfl

/-- Its positive part. -/
theorem res1_1 : StableHlo.after (hostOps1_1 (F := Ideal)) W (Proc.devRef .tc main_v12)
    = Cert.Gcn.pos700 (W (Proc.devRef .tc main_v11)) := by
  after_results; rfl

/-- The second layer's bias, laid as a one-row table. -/
theorem res1_2 : StableHlo.after (hostOps1_2 (F := Ideal)) W (Proc.devRef .tc main_v13)
    = shapeCast S1x400 (W (Proc.devRef .tc main_arg4)) shapeCasts_S400_S1x400 := by
  after_results; rfl

/-- The aggregation of the second region's output over the edges. -/
theorem res2 : StableHlo.after (hostOps2 (F := Ideal)) W (Proc.devRef .tc main_v24)
    = Cert.Gcn.agg400 (W (Proc.devRef .tc main_v14)) (W (Proc.devRef .tc main_arg9)) (W (Proc.devRef .tc main_arg10)) := by
  after_results; rfl

/-- Its positive part. -/
theorem res2_1 : StableHlo.after (hostOps2_1 (F := Ideal)) W (Proc.devRef .tc main_v25)
    = Cert.Gcn.pos400 (W (Proc.devRef .tc main_v24)) := by
  after_results; rfl

/-- The third layer's bias, laid as a one-row table. -/
theorem res2_2 : StableHlo.after (hostOps2_2 (F := Ideal)) W (Proc.devRef .tc main_v26)
    = shapeCast S1x100 (W (Proc.devRef .tc main_arg6)) shapeCasts_S100_S1x100 := by
  after_results; rfl

/-- The aggregation of the third region's output over the edges. -/
theorem res3_agg : StableHlo.after (hostOps3 (F := Ideal)) W (Proc.devRef .tc main_v37)
    = Cert.Gcn.agg100 (W (Proc.devRef .tc main_v27)) (W (Proc.devRef .tc main_arg9)) (W (Proc.devRef .tc main_arg10)) := by
  after_results; rfl

/-- The last layer's bias, laid as a one-row table. -/
theorem res3_bias : StableHlo.after (hostOps3 (F := Ideal)) W (Proc.devRef .tc main_v38)
    = shapeCast S1x16 (W (Proc.devRef .tc main_arg8)) shapeCasts_S16_S1x16 := by
  after_results; rfl

end Cert.KernelIdeal.Stretch

end
-- ==== Proof.Region0.lean ====
/-
  Region 0 (the first dense layer, [50000, 1433] · [1433, 700] + [1, 700]): from the blocks the fifty grid
  points write back to the whole output table. Point t reads rows 1000 t … 1000 t + 999 of the input table, the whole
  weight table and the one bias row, and writes back rows 1000 t … 1000 t + 999 of the output table. Entry by entry the
  block it writes is the dense layer of the three tables as the region finds them, read at the
  block's place in the output table; the fifty blocks tile the output table, so the table ends holding that function.
-/
import proofs.«171094_j31095563223209_1_alg».proof.Proof.Spec
import proofs.«171094_j31095563223209_1_alg».proof.Proof.Pay
import proofs.«171094_j31095563223209_1_alg».proof.Proof.Gen.KernelIdeal.Frame
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Idealize.SL.Sem Cert.KernelIdeal Cert.KernelIdeal.Gen

/-- The zero offsets of a whole-buffer access, spelt as the constant function. -/
theorem hz0 : (![0, 0] : Fin 2 → Nat) = fun _ => 0 := funext fun a => by fin_cases a <;> rfl

/-- The index maps of the four windows, decided once over the grid: the input rows and the output rows move with the
    point (block row `t`), the weight table and the bias row stay at block (0, 0). -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- There are fifty points. -/
theorem point_lt0 (t : Fin cfg0.N) : t.val < 50 := by
  have h : t.val < grid0.N := t.isLt
  rw [Gen.N_0] at h
  exact h

/-- The input block at point `t` is rows `1000 t … 1000 t + 999` of the input table. -/
theorem iblk0_0_apply (V : (c : Dev nD) → (b : Ref sig .tc) → Buf (Elt Ideal) ((c : Thread nD τ).loc b)) (c : Dev nD)
    (t : Fin cfg0.N) (x : S1000x1433.Idx) (k : S50000x1433.Idx)
    (hk0 : (k 0).val = t.val * 1000 + (x 0).val) (hk1 : (k 1).val = (x 1).val) :
    (Gen.iblk0 (F := Ideal) V c 0 t : Vec Ideal S1000x1433 .f32) x = (V c main_arg0 : S50000x1433.Idx → Elt Ideal .f32) k := by
  obtain ⟨e0, e1, -⟩ := idx_facts0 t
  unfold Gen.iblk0
  rw [View.read_apply]
  show V c main_arg0 (((cfg0.win 0).blk t).view.emb x) = V c main_arg0 k
  refine congrArg _ ?_
  funext a
  apply Fin.ext
  match a with
  | ⟨0, _⟩ => show win0_0.index t (0 : Fin 2) * 1000 + 1 * (x 0).val = (k 0).val; rw [e0, hk0]; omega
  | ⟨1, _⟩ => show win0_0.index t (1 : Fin 2) * 1433 + 1 * (x 1).val = (k 1).val; rw [e1, hk1]; omega

/-- The weight block at every point is the whole weight table. -/
theorem iblk0_1_apply (V : (c : Dev nD) → (b : Ref sig .tc) → Buf (Elt Ideal) ((c : Thread nD τ).loc b)) (c : Dev nD)
    (t : Fin cfg0.N) (x : S1433x700.Idx) :
    (Gen.iblk0 (F := Ideal) V c 1 t : Vec Ideal S1433x700 .f32) x = (V c main_arg1 : S1433x700.Idx → Elt Ideal .f32) x := by
  obtain ⟨-, -, e2, e3, -⟩ := idx_facts0 t
  unfold Gen.iblk0
  rw [View.read_apply]
  show V c main_arg1 (((cfg0.win 1).blk t).view.emb x) = V c main_arg1 x
  refine congrArg _ ?_
  funext a
  apply Fin.ext
  match a with
  | ⟨0, _⟩ => show win0_1.index t (0 : Fin 2) * 1433 + 1 * (x 0).val = (x 0).val; rw [e2]; omega
  | ⟨1, _⟩ => show win0_1.index t (1 : Fin 2) * 700 + 1 * (x 1).val = (x 1).val; rw [e3]; omega

/-- The bias block at every point is the whole bias row. -/
theorem iblk0_2_apply (V : (c : Dev nD) → (b : Ref sig .tc) → Buf (Elt Ideal) ((c : Thread nD τ).loc b)) (c : Dev nD)
    (t : Fin cfg0.N) (x : S1x700.Idx) :
    (Gen.iblk0 (F := Ideal) V c 2 t : Vec Ideal S1x700 .f32) x = (V c main_v0 : S1x700.Idx → Elt Ideal .f32) x := by
  obtain ⟨-, -, -, -, e4, e5, -⟩ := idx_facts0 t
  unfold Gen.iblk0
  rw [View.read_apply]
  show V c main_v0 (((cfg0.win 2).blk t).view.emb x) = V c main_v0 x
  refine congrArg _ ?_
  funext a
  apply Fin.ext
  match a with
  | ⟨0, _⟩ => show win0_2.index t (0 : Fin 2) * 1 + 1 * (x 0).val = (x 0).val; rw [e4]; omega
  | ⟨1, _⟩ => show win0_2.index t (1 : Fin 2) * 700 + 1 * (x 1).val = (x 1).val; rw [e5]; omega

/-- Entry (p, q) of the output block at point `t` sits in the output table at row `1000 t + p`, column `q`. -/
theorem oblk0_emb (t : Fin cfg0.N) (p : Fin 1000) (q : Fin 700) (h : t.val * 1000 + p.val < 50000) :
    (((cfg0.win 3).blk t).view.emb (ix2 p q) : S50000x700.Idx) = ix2 (⟨t.val * 1000 + p.val, h⟩ : Fin 50000) q := by
  obtain ⟨-, -, -, -, -, -, e6, e7⟩ := idx_facts0 t
  funext a
  apply Fin.ext
  match a with
  | ⟨0, _⟩ => show win0_3.index t (0 : Fin 2) * 1000 + 1 * p.val = t.val * 1000 + p.val; rw [e6]; omega
  | ⟨1, _⟩ => show win0_3.index t (1 : Fin 2) * 700 + 1 * q.val = q.val; rw [e7]; omega

/-- WHAT POINT `t` WRITES BACK is block `t` of the dense layer of the three tables as the region finds them:
    the body's result at (p, q) is the row-by-column sum over the point's input rows, the weight table and the bias row,
    and each of those blocks reads its table where the output block's place says. -/
theorem flushed0_eq (V : (c : Dev nD) → (b : Ref sig .tc) → Buf (Elt Ideal) ((c : Thread nD τ).loc b)) (c : Dev nD) (t : Fin cfg0.N) :
    (Gen.dat0 (F := Ideal) V c).flushed 3 t = ((cfg0.win 3).blk t).view.read (Elt Ideal) (Cert.Gcn.dense (V c main_arg0) (V c main_arg1) (V c main_v0)) := by
  show (cfg0.win 3).cut (grid0.coords t) ((Gen.dat0 (F := Ideal) V c).after 3 t) = _
  rw [Gen.after0_3]
  unfold Gen.out0_3
  rw [View.canon_unit_zero hz0]
  simp only [View.ld_unit_zero (S := S1000x1433) hz0, View.ld_unit_zero (S := S1433x700) hz0, View.ld_unit_zero (S := S1x700) hz0]
  funext y
  obtain ⟨p, q, rfl⟩ : ∃ (p : Fin 1000) (q : Fin 700), y = ix2 p q := ⟨y 0, y 1, eq_ix2 y⟩
  have hp : p.val < 1000 := p.isLt
  have ht : t.val < 50 := point_lt0 t
  have hr : t.val * 1000 + p.val < 50000 := by omega
  show Gen.k0_pay1 (F := Ideal) (Gen.iblk0 V c 0 t) (Gen.iblk0 V c 1 t) (Gen.iblk0 V c 2 t) (ix2 p q)
    = Cert.Gcn.dense (V c main_arg0) (V c main_arg1) (V c main_v0) (((cfg0.win 3).blk t).view.emb (ix2 p q))
  refine (Pay.pay0_apply _ _ _ p q).trans ?_
  refine Eq.trans ?_ (congrArg (Cert.Gcn.dense (V c main_arg0) (V c main_arg1) (V c main_v0)) (oblk0_emb t p q hr)).symm
  show Cert.Gcn.denseAt _ _ _ p q = Cert.Gcn.denseAt (V c main_arg0) (V c main_arg1) (V c main_v0) (⟨t.val * 1000 + p.val, hr⟩ : Fin 50000) q
  unfold Cert.Gcn.denseAt
  refine congrArg₂ (· + ·) (Finset.sum_congr rfl fun k _ => congrArg₂ (· * ·) ?_ ?_) ?_
  · exact iblk0_0_apply V c t (ix2 p k) (ix2 (⟨t.val * 1000 + p.val, hr⟩ : Fin 50000) k) rfl rfl
  · exact iblk0_1_apply V c t (ix2 k q)
  · exact iblk0_2_apply V c t (ix2 (0 : Fin 1) q)

/-- An index of the output table is in point `t`'s block iff each coordinate is in the block's range on its axis. -/
theorem mem_blk0 (t : Fin cfg0.N) (i : S50000x700.Idx) :
    i ∈ ((cfg0.win 3).blk t).view.set ↔ ∀ a : Fin 2, win0_3.index t a * S1000x700.size a ≤ (i a).val ∧ (i a).val < win0_3.index t a * S1000x700.size a + S1000x700.size a := by
  show i ∈ ((View.whole main_v1).slice (win0_3.rect t)).set ↔ _
  rw [View.set_slice_whole, Rect.mem_set_unit]
  exact Iff.rfl

/-- Every entry of the output table is in some point's block: row `r` is in the block of point `r / 1000`. -/
theorem cover0 (i : S50000x700.Idx) : ∃ t : Fin cfg0.N, (cfg0.win 3).flush t = true ∧ i ∈ ((cfg0.win 3).blk t).view.set := by
  have hi0 : (i 0).val < 50000 := (i 0).isLt
  have hi1 : (i 1).val < 700 := (i 1).isLt
  obtain ⟨t, ht⟩ : ∃ t : Fin cfg0.N, t.val = (i 0).val / 1000 :=
    ⟨⟨(i 0).val / 1000, by show _ < grid0.N; rw [Gen.N_0]; omega⟩, rfl⟩
  obtain ⟨-, -, -, -, -, -, e6, e7⟩ := idx_facts0 t
  refine ⟨t, Gen.flush0_3 t, ?_⟩
  rw [mem_blk0]
  intro a
  match a with
  | ⟨0, _⟩ => show win0_3.index t (0 : Fin 2) * 1000 ≤ (i 0).val ∧ (i 0).val < win0_3.index t (0 : Fin 2) * 1000 + 1000; rw [e6]; omega
  | ⟨1, _⟩ => show win0_3.index t (1 : Fin 2) * 700 ≤ (i 1).val ∧ (i 1).val < win0_3.index t (1 : Fin 2) * 700 + 700; rw [e7]; omega

/-- THE OUTPUT TABLE after the region: the dense layer of the three tables as the region finds them. -/
theorem final0 (V : (c : Dev nD) → (b : Ref sig .tc) → Buf (Elt Ideal) ((c : Thread nD τ).loc b)) (c : Dev nD) :
    (Gen.dat0 (F := Ideal) V c).arrAt 3 cfg0.N = Cert.Gcn.dense (V c main_arg0) (V c main_arg1) (V c main_v0) :=
  (Gen.dat0 (F := Ideal) V c).arrAt_eq_of_cover 3 (Cert.Gcn.dense (V c main_arg0) (V c main_arg1) (V c main_v0))
    (fun t _ => flushed0_eq V c t) cover0

end Cert.KernelIdeal.Region

end
-- ==== Proof.Region1.lean ====
/-
  Region 1 (the second dense layer, [50000, 700] · [700, 400] + [1, 400]): from the blocks the fifty grid
  points write back to the whole output table. Point t reads rows 1000 t … 1000 t + 999 of the input table, the whole
  weight table and the one bias row, and writes back rows 1000 t … 1000 t + 999 of the output table. Entry by entry the
  block it writes is the dense layer of the three tables as the region finds them, read at the
  block's place in the output table; the fifty blocks tile the output table, so the table ends holding that function.
-/
import proofs.«171094_j31095563223209_1_alg».proof.Proof.Spec
import proofs.«171094_j31095563223209_1_alg».proof.Proof.Pay
import proofs.«171094_j31095563223209_1_alg».proof.Proof.Gen.KernelIdeal.Frame
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Idealize.SL.Sem Cert.KernelIdeal Cert.KernelIdeal.Gen

/-- The zero offsets of a whole-buffer access, spelt as the constant function. -/
theorem hz1 : (![0, 0] : Fin 2 → Nat) = fun _ => 0 := funext fun a => by fin_cases a <;> rfl

/-- The index maps of the four windows, decided once over the grid: the input rows and the output rows move with the
    point (block row `t`), the weight table and the bias row stay at block (0, 0). -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- There are fifty points. -/
theorem point_lt1 (t : Fin cfg1.N) : t.val < 50 := by
  have h : t.val < grid1.N := t.isLt
  rw [Gen.N_1] at h
  exact h

/-- The input block at point `t` is rows `1000 t … 1000 t + 999` of the input table. -/
theorem iblk1_0_apply (V : (c : Dev nD) → (b : Ref sig .tc) → Buf (Elt Ideal) ((c : Thread nD τ).loc b)) (c : Dev nD)
    (t : Fin cfg1.N) (x : S1000x700.Idx) (k : S50000x700.Idx)
    (hk0 : (k 0).val = t.val * 1000 + (x 0).val) (hk1 : (k 1).val = (x 1).val) :
    (Gen.iblk1 (F := Ideal) V c 0 t : Vec Ideal S1000x700 .f32) x = (V c main_v12 : S50000x700.Idx → Elt Ideal .f32) k := by
  obtain ⟨e0, e1, -⟩ := idx_facts1 t
  unfold Gen.iblk1
  rw [View.read_apply]
  show V c main_v12 (((cfg1.win 0).blk t).view.emb x) = V c main_v12 k
  refine congrArg _ ?_
  funext a
  apply Fin.ext
  match a with
  | ⟨0, _⟩ => show win1_0.index t (0 : Fin 2) * 1000 + 1 * (x 0).val = (k 0).val; rw [e0, hk0]; omega
  | ⟨1, _⟩ => show win1_0.index t (1 : Fin 2) * 700 + 1 * (x 1).val = (k 1).val; rw [e1, hk1]; omega

/-- The weight block at every point is the whole weight table. -/
theorem iblk1_1_apply (V : (c : Dev nD) → (b : Ref sig .tc) → Buf (Elt Ideal) ((c : Thread nD τ).loc b)) (c : Dev nD)
    (t : Fin cfg1.N) (x : S700x400.Idx) :
    (Gen.iblk1 (F := Ideal) V c 1 t : Vec Ideal S700x400 .f32) x = (V c main_arg3 : S700x400.Idx → Elt Ideal .f32) x := by
  obtain ⟨-, -, e2, e3, -⟩ := idx_facts1 t
  unfold Gen.iblk1
  rw [View.read_apply]
  show V c main_arg3 (((cfg1.win 1).blk t).view.emb x) = V c main_arg3 x
  refine congrArg _ ?_
  funext a
  apply Fin.ext
  match a with
  | ⟨0, _⟩ => show win1_1.index t (0 : Fin 2) * 700 + 1 * (x 0).val = (x 0).val; rw [e2]; omega
  | ⟨1, _⟩ => show win1_1.index t (1 : Fin 2) * 400 + 1 * (x 1).val = (x 1).val; rw [e3]; omega

/-- The bias block at every point is the whole bias row. -/
theorem iblk1_2_apply (V : (c : Dev nD) → (b : Ref sig .tc) → Buf (Elt Ideal) ((c : Thread nD τ).loc b)) (c : Dev nD)
    (t : Fin cfg1.N) (x : S1x400.Idx) :
    (Gen.iblk1 (F := Ideal) V c 2 t : Vec Ideal S1x400 .f32) x = (V c main_v13 : S1x400.Idx → Elt Ideal .f32) x := by
  obtain ⟨-, -, -, -, e4, e5, -⟩ := idx_facts1 t
  unfold Gen.iblk1
  rw [View.read_apply]
  show V c main_v13 (((cfg1.win 2).blk t).view.emb x) = V c main_v13 x
  refine congrArg _ ?_
  funext a
  apply Fin.ext
  match a with
  | ⟨0, _⟩ => show win1_2.index t (0 : Fin 2) * 1 + 1 * (x 0).val = (x 0).val; rw [e4]; omega
  | ⟨1, _⟩ => show win1_2.index t (1 : Fin 2) * 400 + 1 * (x 1).val = (x 1).val; rw [e5]; omega

/-- Entry (p, q) of the output block at point `t` sits in the output table at row `1000 t + p`, column `q`. -/
theorem oblk1_emb (t : Fin cfg1.N) (p : Fin 1000) (q : Fin 400) (h : t.val * 1000 + p.val < 50000) :
    (((cfg1.win 3).blk t).view.emb (ix2 p q) : S50000x400.Idx) = ix2 (⟨t.val * 1000 + p.val, h⟩ : Fin 50000) q := by
  obtain ⟨-, -, -, -, -, -, e6, e7⟩ := idx_facts1 t
  funext a
  apply Fin.ext
  match a with
  | ⟨0, _⟩ => show win1_3.index t (0 : Fin 2) * 1000 + 1 * p.val = t.val * 1000 + p.val; rw [e6]; omega
  | ⟨1, _⟩ => show win1_3.index t (1 : Fin 2) * 400 + 1 * q.val = q.val; rw [e7]; omega

/-- WHAT POINT `t` WRITES BACK is block `t` of the dense layer of the three tables as the region finds them:
    the body's result at (p, q) is the row-by-column sum over the point's input rows, the weight table and the bias row,
    and each of those blocks reads its table where the output block's place says. -/
theorem flushed1_eq (V : (c : Dev nD) → (b : Ref sig .tc) → Buf (Elt Ideal) ((c : Thread nD τ).loc b)) (c : Dev nD) (t : Fin cfg1.N) :
    (Gen.dat1 (F := Ideal) V c).flushed 3 t = ((cfg1.win 3).blk t).view.read (Elt Ideal) (Cert.Gcn.dense (V c main_v12) (V c main_arg3) (V c main_v13)) := by
  show (cfg1.win 3).cut (grid1.coords t) ((Gen.dat1 (F := Ideal) V c).after 3 t) = _
  rw [Gen.after1_3]
  unfold Gen.out1_3
  rw [View.canon_unit_zero hz1]
  simp only [View.ld_unit_zero (S := S1000x700) hz1, View.ld_unit_zero (S := S700x400) hz1, View.ld_unit_zero (S := S1x400) hz1]
  funext y
  obtain ⟨p, q, rfl⟩ : ∃ (p : Fin 1000) (q : Fin 400), y = ix2 p q := ⟨y 0, y 1, eq_ix2 y⟩
  have hp : p.val < 1000 := p.isLt
  have ht : t.val < 50 := point_lt1 t
  have hr : t.val * 1000 + p.val < 50000 := by omega
  show Gen.k1_pay1 (F := Ideal) (Gen.iblk1 V c 0 t) (Gen.iblk1 V c 1 t) (Gen.iblk1 V c 2 t) (ix2 p q)
    = Cert.Gcn.dense (V c main_v12) (V c main_arg3) (V c main_v13) (((cfg1.win 3).blk t).view.emb (ix2 p q))
  refine (Pay.pay1_apply _ _ _ p q).trans ?_
  refine Eq.trans ?_ (congrArg (Cert.Gcn.dense (V c main_v12) (V c main_arg3) (V c main_v13)) (oblk1_emb t p q hr)).symm
  show Cert.Gcn.denseAt _ _ _ p q = Cert.Gcn.denseAt (V c main_v12) (V c main_arg3) (V c main_v13) (⟨t.val * 1000 + p.val, hr⟩ : Fin 50000) q
  unfold Cert.Gcn.denseAt
  refine congrArg₂ (· + ·) (Finset.sum_congr rfl fun k _ => congrArg₂ (· * ·) ?_ ?_) ?_
  · exact iblk1_0_apply V c t (ix2 p k) (ix2 (⟨t.val * 1000 + p.val, hr⟩ : Fin 50000) k) rfl rfl
  · exact iblk1_1_apply V c t (ix2 k q)
  · exact iblk1_2_apply V c t (ix2 (0 : Fin 1) q)

/-- An index of the output table is in point `t`'s block iff each coordinate is in the block's range on its axis. -/
theorem mem_blk1 (t : Fin cfg1.N) (i : S50000x400.Idx) :
    i ∈ ((cfg1.win 3).blk t).view.set ↔ ∀ a : Fin 2, win1_3.index t a * S1000x400.size a ≤ (i a).val ∧ (i a).val < win1_3.index t a * S1000x400.size a + S1000x400.size a := by
  show i ∈ ((View.whole main_v14).slice (win1_3.rect t)).set ↔ _
  rw [View.set_slice_whole, Rect.mem_set_unit]
  exact Iff.rfl

/-- Every entry of the output table is in some point's block: row `r` is in the block of point `r / 1000`. -/
theorem cover1 (i : S50000x400.Idx) : ∃ t : Fin cfg1.N, (cfg1.win 3).flush t = true ∧ i ∈ ((cfg1.win 3).blk t).view.set := by
  have hi0 : (i 0).val < 50000 := (i 0).isLt
  have hi1 : (i 1).val < 400 := (i 1).isLt
  obtain ⟨t, ht⟩ : ∃ t : Fin cfg1.N, t.val = (i 0).val / 1000 :=
    ⟨⟨(i 0).val / 1000, by show _ < grid1.N; rw [Gen.N_1]; omega⟩, rfl⟩
  obtain ⟨-, -, -, -, -, -, e6, e7⟩ := idx_facts1 t
  refine ⟨t, Gen.flush1_3 t, ?_⟩
  rw [mem_blk1]
  intro a
  match a with
  | ⟨0, _⟩ => show win1_3.index t (0 : Fin 2) * 1000 ≤ (i 0).val ∧ (i 0).val < win1_3.index t (0 : Fin 2) * 1000 + 1000; rw [e6]; omega
  | ⟨1, _⟩ => show win1_3.index t (1 : Fin 2) * 400 ≤ (i 1).val ∧ (i 1).val < win1_3.index t (1 : Fin 2) * 400 + 400; rw [e7]; omega

/-- THE OUTPUT TABLE after the region: the dense layer of the three tables as the region finds them. -/
theorem final1 (V : (c : Dev nD) → (b : Ref sig .tc) → Buf (Elt Ideal) ((c : Thread nD τ).loc b)) (c : Dev nD) :
    (Gen.dat1 (F := Ideal) V c).arrAt 3 cfg1.N = Cert.Gcn.dense (V c main_v12) (V c main_arg3) (V c main_v13) :=
  (Gen.dat1 (F := Ideal) V c).arrAt_eq_of_cover 3 (Cert.Gcn.dense (V c main_v12) (V c main_arg3) (V c main_v13))
    (fun t _ => flushed1_eq V c t) cover1

end Cert.KernelIdeal.Region

end
-- ==== Proof.Region2.lean ====
/-
  Region 2 (the third dense layer, [50000, 400] · [400, 100] + [1, 100]): from the blocks the fifty grid
  points write back to the whole output table. Point t reads rows 1000 t … 1000 t + 999 of the input table, the whole
  weight table and the one bias row, and writes back rows 1000 t … 1000 t + 999 of the output table. Entry by entry the
  block it writes is the dense layer of the three tables as the region finds them, read at the
  block's place in the output table; the fifty blocks tile the output table, so the table ends holding that function.
-/
import proofs.«171094_j31095563223209_1_alg».proof.Proof.Spec
import proofs.«171094_j31095563223209_1_alg».proof.Proof.Pay
import proofs.«171094_j31095563223209_1_alg».proof.Proof.Gen.KernelIdeal.Frame
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Idealize.SL.Sem Cert.KernelIdeal Cert.KernelIdeal.Gen

/-- The zero offsets of a whole-buffer access, spelt as the constant function. -/
theorem hz2 : (![0, 0] : Fin 2 → Nat) = fun _ => 0 := funext fun a => by fin_cases a <;> rfl

/-- The index maps of the four windows, decided once over the grid: the input rows and the output rows move with the
    point (block row `t`), the weight table and the bias row stay at block (0, 0). -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- There are fifty points. -/
theorem point_lt2 (t : Fin cfg2.N) : t.val < 50 := by
  have h : t.val < grid2.N := t.isLt
  rw [Gen.N_2] at h
  exact h

/-- The input block at point `t` is rows `1000 t … 1000 t + 999` of the input table. -/
theorem iblk2_0_apply (V : (c : Dev nD) → (b : Ref sig .tc) → Buf (Elt Ideal) ((c : Thread nD τ).loc b)) (c : Dev nD)
    (t : Fin cfg2.N) (x : S1000x400.Idx) (k : S50000x400.Idx)
    (hk0 : (k 0).val = t.val * 1000 + (x 0).val) (hk1 : (k 1).val = (x 1).val) :
    (Gen.iblk2 (F := Ideal) V c 0 t : Vec Ideal S1000x400 .f32) x = (V c main_v25 : S50000x400.Idx → Elt Ideal .f32) k := by
  obtain ⟨e0, e1, -⟩ := idx_facts2 t
  unfold Gen.iblk2
  rw [View.read_apply]
  show V c main_v25 (((cfg2.win 0).blk t).view.emb x) = V c main_v25 k
  refine congrArg _ ?_
  funext a
  apply Fin.ext
  match a with
  | ⟨0, _⟩ => show win2_0.index t (0 : Fin 2) * 1000 + 1 * (x 0).val = (k 0).val; rw [e0, hk0]; omega
  | ⟨1, _⟩ => show win2_0.index t (1 : Fin 2) * 400 + 1 * (x 1).val = (k 1).val; rw [e1, hk1]; omega

/-- The weight block at every point is the whole weight table. -/
theorem iblk2_1_apply (V : (c : Dev nD) → (b : Ref sig .tc) → Buf (Elt Ideal) ((c : Thread nD τ).loc b)) (c : Dev nD)
    (t : Fin cfg2.N) (x : S400x100.Idx) :
    (Gen.iblk2 (F := Ideal) V c 1 t : Vec Ideal S400x100 .f32) x = (V c main_arg5 : S400x100.Idx → Elt Ideal .f32) x := by
  obtain ⟨-, -, e2, e3, -⟩ := idx_facts2 t
  unfold Gen.iblk2
  rw [View.read_apply]
  show V c main_arg5 (((cfg2.win 1).blk t).view.emb x) = V c main_arg5 x
  refine congrArg _ ?_
  funext a
  apply Fin.ext
  match a with
  | ⟨0, _⟩ => show win2_1.index t (0 : Fin 2) * 400 + 1 * (x 0).val = (x 0).val; rw [e2]; omega
  | ⟨1, _⟩ => show win2_1.index t (1 : Fin 2) * 100 + 1 * (x 1).val = (x 1).val; rw [e3]; omega

/-- The bias block at every point is the whole bias row. -/
theorem iblk2_2_apply (V : (c : Dev nD) → (b : Ref sig .tc) → Buf (Elt Ideal) ((c : Thread nD τ).loc b)) (c : Dev nD)
    (t : Fin cfg2.N) (x : S1x100.Idx) :
    (Gen.iblk2 (F := Ideal) V c 2 t : Vec Ideal S1x100 .f32) x = (V c main_v26 : S1x100.Idx → Elt Ideal .f32) x := by
  obtain ⟨-, -, -, -, e4, e5, -⟩ := idx_facts2 t
  unfold Gen.iblk2
  rw [View.read_apply]
  show V c main_v26 (((cfg2.win 2).blk t).view.emb x) = V c main_v26 x
  refine congrArg _ ?_
  funext a
  apply Fin.ext
  match a with
  | ⟨0, _⟩ => show win2_2.index t (0 : Fin 2) * 1 + 1 * (x 0).val = (x 0).val; rw [e4]; omega
  | ⟨1, _⟩ => show win2_2.index t (1 : Fin 2) * 100 + 1 * (x 1).val = (x 1).val; rw [e5]; omega

/-- Entry (p, q) of the output block at point `t` sits in the output table at row `1000 t + p`, column `q`. -/
theorem oblk2_emb (t : Fin cfg2.N) (p : Fin 1000) (q : Fin 100) (h : t.val * 1000 + p.val < 50000) :
    (((cfg2.win 3).blk t).view.emb (ix2 p q) : S50000x100.Idx) = ix2 (⟨t.val * 1000 + p.val, h⟩ : Fin 50000) q := by
  obtain ⟨-, -, -, -, -, -, e6, e7⟩ := idx_facts2 t
  funext a
  apply Fin.ext
  match a with
  | ⟨0, _⟩ => show win2_3.index t (0 : Fin 2) * 1000 + 1 * p.val = t.val * 1000 + p.val; rw [e6]; omega
  | ⟨1, _⟩ => show win2_3.index t (1 : Fin 2) * 100 + 1 * q.val = q.val; rw [e7]; omega

/-- WHAT POINT `t` WRITES BACK is block `t` of the dense layer of the three tables as the region finds them:
    the body's result at (p, q) is the row-by-column sum over the point's input rows, the weight table and the bias row,
    and each of those blocks reads its table where the output block's place says. -/
theorem flushed2_eq (V : (c : Dev nD) → (b : Ref sig .tc) → Buf (Elt Ideal) ((c : Thread nD τ).loc b)) (c : Dev nD) (t : Fin cfg2.N) :
    (Gen.dat2 (F := Ideal) V c).flushed 3 t = ((cfg2.win 3).blk t).view.read (Elt Ideal) (Cert.Gcn.dense (V c main_v25) (V c main_arg5) (V c main_v26)) := by
  show (cfg2.win 3).cut (grid2.coords t) ((Gen.dat2 (F := Ideal) V c).after 3 t) = _
  rw [Gen.after2_3]
  unfold Gen.out2_3
  rw [View.canon_unit_zero hz2]
  simp only [View.ld_unit_zero (S := S1000x400) hz2, View.ld_unit_zero (S := S400x100) hz2, View.ld_unit_zero (S := S1x100) hz2]
  funext y
  obtain ⟨p, q, rfl⟩ : ∃ (p : Fin 1000) (q : Fin 100), y = ix2 p q := ⟨y 0, y 1, eq_ix2 y⟩
  have hp : p.val < 1000 := p.isLt
  have ht : t.val < 50 := point_lt2 t
  have hr : t.val * 1000 + p.val < 50000 := by omega
  show Gen.k2_pay1 (F := Ideal) (Gen.iblk2 V c 0 t) (Gen.iblk2 V c 1 t) (Gen.iblk2 V c 2 t) (ix2 p q)
    = Cert.Gcn.dense (V c main_v25) (V c main_arg5) (V c main_v26) (((cfg2.win 3).blk t).view.emb (ix2 p q))
  refine (Pay.pay2_apply _ _ _ p q).trans ?_
  refine Eq.trans ?_ (congrArg (Cert.Gcn.dense (V c main_v25) (V c main_arg5) (V c main_v26)) (oblk2_emb t p q hr)).symm
  show Cert.Gcn.denseAt _ _ _ p q = Cert.Gcn.denseAt (V c main_v25) (V c main_arg5) (V c main_v26) (⟨t.val * 1000 + p.val, hr⟩ : Fin 50000) q
  unfold Cert.Gcn.denseAt
  refine congrArg₂ (· + ·) (Finset.sum_congr rfl fun k _ => congrArg₂ (· * ·) ?_ ?_) ?_
  · exact iblk2_0_apply V c t (ix2 p k) (ix2 (⟨t.val * 1000 + p.val, hr⟩ : Fin 50000) k) rfl rfl
  · exact iblk2_1_apply V c t (ix2 k q)
  · exact iblk2_2_apply V c t (ix2 (0 : Fin 1) q)

/-- An index of the output table is in point `t`'s block iff each coordinate is in the block's range on its axis. -/
theorem mem_blk2 (t : Fin cfg2.N) (i : S50000x100.Idx) :
    i ∈ ((cfg2.win 3).blk t).view.set ↔ ∀ a : Fin 2, win2_3.index t a * S1000x100.size a ≤ (i a).val ∧ (i a).val < win2_3.index t a * S1000x100.size a + S1000x100.size a := by
  show i ∈ ((View.whole main_v27).slice (win2_3.rect t)).set ↔ _
  rw [View.set_slice_whole, Rect.mem_set_unit]
  exact Iff.rfl

/-- Every entry of the output table is in some point's block: row `r` is in the block of point `r / 1000`. -/
theorem cover2 (i : S50000x100.Idx) : ∃ t : Fin cfg2.N, (cfg2.win 3).flush t = true ∧ i ∈ ((cfg2.win 3).blk t).view.set := by
  have hi0 : (i 0).val < 50000 := (i 0).isLt
  have hi1 : (i 1).val < 100 := (i 1).isLt
  obtain ⟨t, ht⟩ : ∃ t : Fin cfg2.N, t.val = (i 0).val / 1000 :=
    ⟨⟨(i 0).val / 1000, by show _ < grid2.N; rw [Gen.N_2]; omega⟩, rfl⟩
  obtain ⟨-, -, -, -, -, -, e6, e7⟩ := idx_facts2 t
  refine ⟨t, Gen.flush2_3 t, ?_⟩
  rw [mem_blk2]
  intro a
  match a with
  | ⟨0, _⟩ => show win2_3.index t (0 : Fin 2) * 1000 ≤ (i 0).val ∧ (i 0).val < win2_3.index t (0 : Fin 2) * 1000 + 1000; rw [e6]; omega
  | ⟨1, _⟩ => show win2_3.index t (1 : Fin 2) * 100 ≤ (i 1).val ∧ (i 1).val < win2_3.index t (1 : Fin 2) * 100 + 100; rw [e7]; omega

/-- THE OUTPUT TABLE after the region: the dense layer of the three tables as the region finds them. -/
theorem final2 (V : (c : Dev nD) → (b : Ref sig .tc) → Buf (Elt Ideal) ((c : Thread nD τ).loc b)) (c : Dev nD) :
    (Gen.dat2 (F := Ideal) V c).arrAt 3 cfg2.N = Cert.Gcn.dense (V c main_v25) (V c main_arg5) (V c main_v26) :=
  (Gen.dat2 (F := Ideal) V c).arrAt_eq_of_cover 3 (Cert.Gcn.dense (V c main_v25) (V c main_arg5) (V c main_v26))
    (fun t _ => flushed2_eq V c t) cover2

end Cert.KernelIdeal.Region

end
-- ==== Proof.Region3.lean ====
/-
  Region 3 (the last dense layer, [50000, 100] · [100, 16] + [1, 16], then the maximum against a threshold): from the blocks the fifty grid
  points write back to the whole output table. Point t reads rows 1000 t … 1000 t + 999 of the input table, the whole
  weight table and the one bias row, and writes back rows 1000 t … 1000 t + 999 of the output table. Entry by entry the
  block it writes is the dense layer of the three tables followed by the maximum against the threshold as the region finds them, read at the
  block's place in the output table; the fifty blocks tile the output table, so the table ends holding that function.
-/
import proofs.«171094_j31095563223209_1_alg».proof.Proof.Spec
import proofs.«171094_j31095563223209_1_alg».proof.Proof.Pay
import proofs.«171094_j31095563223209_1_alg».proof.Proof.Gen.KernelIdeal.Frame
import Idealize.ShloMosaic.Lib.Pipeline.Value
import Idealize.ShloMosaic.Lib.ValueIdx

noncomputable section

namespace Cert.KernelIdeal.Region

open Idealize.ShloMosaic Idealize.ShloMosaic.TcCoe Idealize.ShloMosaic.ValueIdx Idealize.SL.Sem Cert.KernelIdeal Cert.KernelIdeal.Gen

/-- The zero offsets of a whole-buffer access, spelt as the constant function. -/
theorem hz3 : (![0, 0] : Fin 2 → Nat) = fun _ => 0 := funext fun a => by fin_cases a <;> rfl

/-- The index maps of the four windows, decided once over the grid: the input rows and the output rows move with the
    point (block row `t`), the weight table and the bias row stay at block (0, 0). -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- There are fifty points. -/
theorem point_lt3 (t : Fin cfg3.N) : t.val < 50 := by
  have h : t.val < grid3.N := t.isLt
  rw [Gen.N_3] at h
  exact h

/-- The input block at point `t` is rows `1000 t … 1000 t + 999` of the input table. -/
theorem iblk3_0_apply (V : (c : Dev nD) → (b : Ref sig .tc) → Buf (Elt Ideal) ((c : Thread nD τ).loc b)) (c : Dev nD)
    (t : Fin cfg3.N) (x : S1000x100.Idx) (k : S50000x100.Idx)
    (hk0 : (k 0).val = t.val * 1000 + (x 0).val) (hk1 : (k 1).val = (x 1).val) :
    (Gen.iblk3 (F := Ideal) V c 0 t : Vec Ideal S1000x100 .f32) x = (V c main_v37 : S50000x100.Idx → Elt Ideal .f32) k := by
  obtain ⟨e0, e1, -⟩ := idx_facts3 t
  unfold Gen.iblk3
  rw [View.read_apply]
  show V c main_v37 (((cfg3.win 0).blk t).view.emb x) = V c main_v37 k
  refine congrArg _ ?_
  funext a
  apply Fin.ext
  match a with
  | ⟨0, _⟩ => show win3_0.index t (0 : Fin 2) * 1000 + 1 * (x 0).val = (k 0).val; rw [e0, hk0]; omega
  | ⟨1, _⟩ => show win3_0.index t (1 : Fin 2) * 100 + 1 * (x 1).val = (k 1).val; rw [e1, hk1]; omega

/-- The weight block at every point is the whole weight table. -/
theorem iblk3_1_apply (V : (c : Dev nD) → (b : Ref sig .tc) → Buf (Elt Ideal) ((c : Thread nD τ).loc b)) (c : Dev nD)
    (t : Fin cfg3.N) (x : S100x16.Idx) :
    (Gen.iblk3 (F := Ideal) V c 1 t : Vec Ideal S100x16 .f32) x = (V c main_arg7 : S100x16.Idx → Elt Ideal .f32) x := by
  obtain ⟨-, -, e2, e3, -⟩ := idx_facts3 t
  unfold Gen.iblk3
  rw [View.read_apply]
  show V c main_arg7 (((cfg3.win 1).blk t).view.emb x) = V c main_arg7 x
  refine congrArg _ ?_
  funext a
  apply Fin.ext
  match a with
  | ⟨0, _⟩ => show win3_1.index t (0 : Fin 2) * 100 + 1 * (x 0).val = (x 0).val; rw [e2]; omega
  | ⟨1, _⟩ => show win3_1.index t (1 : Fin 2) * 16 + 1 * (x 1).val = (x 1).val; rw [e3]; omega

/-- The bias block at every point is the whole bias row. -/
theorem iblk3_2_apply (V : (c : Dev nD) → (b : Ref sig .tc) → Buf (Elt Ideal) ((c : Thread nD τ).loc b)) (c : Dev nD)
    (t : Fin cfg3.N) (x : S1x16.Idx) :
    (Gen.iblk3 (F := Ideal) V c 2 t : Vec Ideal S1x16 .f32) x = (V c main_v38 : S1x16.Idx → Elt Ideal .f32) x := by
  obtain ⟨-, -, -, -, e4, e5, -⟩ := idx_facts3 t
  unfold Gen.iblk3
  rw [View.read_apply]
  show V c main_v38 (((cfg3.win 2).blk t).view.emb x) = V c main_v38 x
  refine congrArg _ ?_
  funext a
  apply Fin.ext
  match a with
  | ⟨0, _⟩ => show win3_2.index t (0 : Fin 2) * 1 + 1 * (x 0).val = (x 0).val; rw [e4]; omega
  | ⟨1, _⟩ => show win3_2.index t (1 : Fin 2) * 16 + 1 * (x 1).val = (x 1).val; rw [e5]; omega

/-- Entry (p, q) of the output block at point `t` sits in the output table at row `1000 t + p`, column `q`. -/
theorem oblk3_emb (t : Fin cfg3.N) (p : Fin 1000) (q : Fin 16) (h : t.val * 1000 + p.val < 50000) :
    (((cfg3.win 3).blk t).view.emb (ix2 p q) : S50000x16.Idx) = ix2 (⟨t.val * 1000 + p.val, h⟩ : Fin 50000) q := by
  obtain ⟨-, -, -, -, -, -, e6, e7⟩ := idx_facts3 t
  funext a
  apply Fin.ext
  match a with
  | ⟨0, _⟩ => show win3_3.index t (0 : Fin 2) * 1000 + 1 * p.val = t.val * 1000 + p.val; rw [e6]; omega
  | ⟨1, _⟩ => show win3_3.index t (1 : Fin 2) * 16 + 1 * q.val = q.val; rw [e7]; omega

/-- WHAT POINT `t` WRITES BACK is block `t` of the dense layer of the three tables followed by the maximum against the threshold as the region finds them:
    the body's result at (p, q) is the row-by-column sum over the point's input rows, the weight table and the bias row, then the maximum,
    and each of those blocks reads its table where the output block's place says. -/
theorem flushed3_eq (V : (c : Dev nD) → (b : Ref sig .tc) → Buf (Elt Ideal) ((c : Thread nD τ).loc b)) (c : Dev nD) (t : Fin cfg3.N) :
    (Gen.dat3 (F := Ideal) V c).flushed 3 t = ((cfg3.win 3).blk t).view.read (Elt Ideal) (Cert.Gcn.denseMax (Ideal.ofBits .f32 0x00000000#32) (V c main_v37) (V c main_arg7) (V c main_v38)) := by
  show (cfg3.win 3).cut (grid3.coords t) ((Gen.dat3 (F := Ideal) V c).after 3 t) = _
  rw [Gen.after3_3]
  unfold Gen.out3_3
  rw [View.canon_unit_zero hz3]
  simp only [View.ld_unit_zero (S := S1000x100) hz3, View.ld_unit_zero (S := S100x16) hz3, View.ld_unit_zero (S := S1x16) hz3]
  funext y
  obtain ⟨p, q, rfl⟩ : ∃ (p : Fin 1000) (q : Fin 16), y = ix2 p q := ⟨y 0, y 1, eq_ix2 y⟩
  have hp : p.val < 1000 := p.isLt
  have ht : t.val < 50 := point_lt3 t
  have hr : t.val * 1000 + p.val < 50000 := by omega
  show Gen.k3_pay1 (F := Ideal) (Gen.iblk3 V c 0 t) (Gen.iblk3 V c 1 t) (Gen.iblk3 V c 2 t) (ix2 p q)
    = Cert.Gcn.denseMax (Ideal.ofBits .f32 0x00000000#32) (V c main_v37) (V c main_arg7) (V c main_v38) (((cfg3.win 3).blk t).view.emb (ix2 p q))
  refine (Pay.pay3_apply _ _ _ p q).trans ?_
  refine Eq.trans ?_ (congrArg (Cert.Gcn.denseMax (Ideal.ofBits .f32 0x00000000#32) (V c main_v37) (V c main_arg7) (V c main_v38)) (oblk3_emb t p q hr)).symm
  show max (Cert.Gcn.denseAt _ _ _ p q) (Ideal.ofBits .f32 0x00000000#32)
    = max (Cert.Gcn.denseAt (V c main_v37) (V c main_arg7) (V c main_v38) (⟨t.val * 1000 + p.val, hr⟩ : Fin 50000) q) (Ideal.ofBits .f32 0x00000000#32)
  refine congrArg (fun u => max u (Ideal.ofBits .f32 0x00000000#32)) ?_
  show Cert.Gcn.denseAt _ _ _ p q = Cert.Gcn.denseAt (V c main_v37) (V c main_arg7) (V c main_v38) (⟨t.val * 1000 + p.val, hr⟩ : Fin 50000) q
  unfold Cert.Gcn.denseAt
  refine congrArg₂ (· + ·) (Finset.sum_congr rfl fun k _ => congrArg₂ (· * ·) ?_ ?_) ?_
  · exact iblk3_0_apply V c t (ix2 p k) (ix2 (⟨t.val * 1000 + p.val, hr⟩ : Fin 50000) k) rfl rfl
  · exact iblk3_1_apply V c t (ix2 k q)
  · exact iblk3_2_apply V c t (ix2 (0 : Fin 1) q)

/-- An index of the output table is in point `t`'s block iff each coordinate is in the block's range on its axis. -/
theorem mem_blk3 (t : Fin cfg3.N) (i : S50000x16.Idx) :
    i ∈ ((cfg3.win 3).blk t).view.set ↔ ∀ a : Fin 2, win3_3.index t a * S1000x16.size a ≤ (i a).val ∧ (i a).val < win3_3.index t a * S1000x16.size a + S1000x16.size a := by
  show i ∈ ((View.whole main_v39).slice (win3_3.rect t)).set ↔ _
  rw [View.set_slice_whole, Rect.mem_set_unit]
  exact Iff.rfl

/-- Every entry of the output table is in some point's block: row `r` is in the block of point `r / 1000`. -/
theorem cover3 (i : S50000x16.Idx) : ∃ t : Fin cfg3.N, (cfg3.win 3).flush t = true ∧ i ∈ ((cfg3.win 3).blk t).view.set := by
  have hi0 : (i 0).val < 50000 := (i 0).isLt
  have hi1 : (i 1).val < 16 := (i 1).isLt
  obtain ⟨t, ht⟩ : ∃ t : Fin cfg3.N, t.val = (i 0).val / 1000 :=
    ⟨⟨(i 0).val / 1000, by show _ < grid3.N; rw [Gen.N_3]; omega⟩, rfl⟩
  obtain ⟨-, -, -, -, -, -, e6, e7⟩ := idx_facts3 t
  refine ⟨t, Gen.flush3_3 t, ?_⟩
  rw [mem_blk3]
  intro a
  match a with
  | ⟨0, _⟩ => show win3_3.index t (0 : Fin 2) * 1000 ≤ (i 0).val ∧ (i 0).val < win3_3.index t (0 : Fin 2) * 1000 + 1000; rw [e6]; omega
  | ⟨1, _⟩ => show win3_3.index t (1 : Fin 2) * 16 ≤ (i 1).val ∧ (i 1).val < win3_3.index t (1 : Fin 2) * 16 + 16; rw [e7]; omega

/-- THE OUTPUT TABLE after the region: the dense layer of the three tables followed by the maximum against the threshold as the region finds them. -/
theorem final3 (V : (c : Dev nD) → (b : Ref sig .tc) → Buf (Elt Ideal) ((c : Thread nD τ).loc b)) (c : Dev nD) :
    (Gen.dat3 (F := Ideal) V c).arrAt 3 cfg3.N = Cert.Gcn.denseMax (Ideal.ofBits .f32 0x00000000#32) (V c main_v37) (V c main_arg7) (V c main_v38) :=
  (Gen.dat3 (F := Ideal) V c).arrAt_eq_of_cover 3 (Cert.Gcn.denseMax (Ideal.ofBits .f32 0x00000000#32) (V c main_v37) (V c main_arg7) (V c main_v38))
    (fun t _ => flushed3_eq V c t) cover3

end Cert.KernelIdeal.Region

end
-- ==== Proof.KRun.lean ====
/-
  The idealized kernel program's run with its result named: every weakly fair execution of the program from any
  memory with zero counters terminates without a fault; the result table then holds what the last pipelined region's
  write-backs leave in it (the contents the fold of the program's segments ends with at that buffer), and every
  argument table is as launched. This is the frame statement with one more conjunct — the result buffer read against
  the final state exactly as each argument buffer is.
-/
import proofs.«171094_j31095563223209_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer at the last boundary's contents, the arguments as launched. -/
theorem run_named : θ_run defs (onTc (τ := τ) (main (F := F))) ⟨m, fun _ => 0, ρ⟩ (fun r => ∀ c : Dev nD,
      r.2.mem ((c.tc : Thread nD τ).loc main_v39) = W12 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v39 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Named

end
-- ==== Proof.Fold.lean ====
/-
  The kernel program's result, read back through the program's segments. The buffers' contents at each segment
  boundary are a fold from the launch memory: a host stretch rewrites the buffers it writes, a pipelined region leaves
  in its output table what its write-backs leave and touches nothing else. Walking that fold: the first region's
  output is the first dense layer of the features; the stretch after it aggregates that table over the graph's edges
  and takes the positive part; the second region's output is the second dense layer of that; and so on to the last
  region, whose output — the program's result — is the positive part of the last dense layer of the third
  aggregation. No stretch and no region writes an argument table, so every argument is read, wherever it is read, as
  launched. Each region's output table is the dense layer of the specification (the region's blocks assembled), and
  that table is the reference's dense layer of the same operands; so the result is the network's value.
-/
import proofs.«171094_j31095563223209_1_alg».proof.Proof.Spec
import proofs.«171094_j31095563223209_1_alg».proof.Proof.Net
import proofs.«171094_j31095563223209_1_alg».proof.Proof.Pay
import proofs.«171094_j31095563223209_1_alg».proof.Proof.RefDense
import proofs.«171094_j31095563223209_1_alg».proof.Proof.Stretch
import proofs.«171094_j31095563223209_1_alg».proof.Proof.Region0
import proofs.«171094_j31095563223209_1_alg».proof.Proof.Region1
import proofs.«171094_j31095563223209_1_alg».proof.Proof.Region2
import proofs.«171094_j31095563223209_1_alg».proof.Proof.Region3
import proofs.«171094_j31095563223209_1_alg».proof.Proof.KRun
import proofs.«171094_j31095563223209_1_alg».proof.Proof.Gen.KernelIdeal.Frame

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A function of three arguments respects equality in each. -/
theorem congr3 {α β γ δ : Sort _} (f : α → β → γ → δ) {a a' : α} {b b' : β} {d d' : γ} (ha : a = a') (hb : b = b') (hd : d = d') :
    f a b d = f a' b' d' := by subst ha hb hd; rfl

/-! ## The network's intermediate tables, from the launch memory -/

/-- The first dense layer of the features. -/
abbrev h1 : FVec Ideal Cert.ReferenceIdeal.S50000x700 .f32 := Cert.Gcn.lin0 (m ((c : Thread nD τ).loc main_arg0)) (m ((c : Thread nD τ).loc main_arg1)) (m ((c : Thread nD τ).loc main_arg2))
/-- Its aggregation over the edges, positive part taken. -/
abbrev x1 : FVec Ideal Cert.ReferenceIdeal.S50000x700 .f32 := Cert.Gcn.pos700 (Cert.Gcn.agg700 (h1 m c) (m ((c : Thread nD τ).loc main_arg9)) (m ((c : Thread nD τ).loc main_arg10)))
/-- The second dense layer. -/
abbrev h2 : FVec Ideal Cert.ReferenceIdeal.S50000x400 .f32 := Cert.Gcn.lin1 (x1 m c) (m ((c : Thread nD τ).loc main_arg3)) (m ((c : Thread nD τ).loc main_arg4))
/-- Its aggregation, positive part taken. -/
abbrev x2 : FVec Ideal Cert.ReferenceIdeal.S50000x400 .f32 := Cert.Gcn.pos400 (Cert.Gcn.agg400 (h2 m c) (m ((c : Thread nD τ).loc main_arg9)) (m ((c : Thread nD τ).loc main_arg10)))
/-- The third dense layer. -/
abbrev h3 : FVec Ideal Cert.ReferenceIdeal.S50000x100 .f32 := Cert.Gcn.lin2 (x2 m c) (m ((c : Thread nD τ).loc main_arg5)) (m ((c : Thread nD τ).loc main_arg6))
/-- Its aggregation. -/
abbrev g3 : FVec Ideal Cert.ReferenceIdeal.S50000x100 .f32 := Cert.Gcn.agg100 (h3 m c) (m ((c : Thread nD τ).loc main_arg9)) (m ((c : Thread nD τ).loc main_arg10))

/-! ## Region 0: the first dense layer -/

theorem in0_x : W1 m ρ c (Proc.devRef .tc main_arg0) = (m ((c : Thread nD τ).loc main_arg0)) := (Stretch.keep0 (W0 m ρ c) main_arg0 (by decide)).trans (rfl)
theorem in0_w : W1 m ρ c (Proc.devRef .tc main_arg1) = (m ((c : Thread nD τ).loc main_arg1)) := (Stretch.keep0 (W0 m ρ c) main_arg1 (by decide)).trans (rfl)
theorem in0_b : W1 m ρ c (Proc.devRef .tc main_v0) = shapeCast S1x700 (m ((c : Thread nD τ).loc main_arg2)) shapeCasts_S700_S1x700 := Stretch.res0 (W0 m ρ c)

theorem out0 : W2 m ρ c (Proc.devRef .tc main_v1) = h1 m c :=
  (W2_arr m ρ c 3).trans <| (Region.final0 (V1 m ρ) c).trans <|
    (congr3 (Cert.Gcn.dense (M := 50000) (K := 1433) (N := 700)) (in0_x m ρ c) (in0_w m ρ c) (in0_b m ρ c)).trans
      (Cert.ReferenceIdeal.Dense.lin0_eq (m ((c : Thread nD τ).loc main_arg0)) (m ((c : Thread nD τ).loc main_arg1)) (m ((c : Thread nD τ).loc main_arg2)) _ (fun q => Pay.bias_row _ _ q)).symm

/-! ## The stretch after it, and region 1: the second dense layer -/

theorem src2 : W2 m ρ c (Proc.devRef .tc main_arg9) = (m ((c : Thread nD τ).loc main_arg9)) := (W2_of_ne m ρ c main_arg9 (by decide)).trans ((Stretch.keep0 (W0 m ρ c) main_arg9 (by decide)).trans (rfl))
theorem dst2 : W2 m ρ c (Proc.devRef .tc main_arg10) = (m ((c : Thread nD τ).loc main_arg10)) := (W2_of_ne m ρ c main_arg10 (by decide)).trans ((Stretch.keep0 (W0 m ρ c) main_arg10 (by decide)).trans (rfl))
theorem agg1 : W3 m ρ c (Proc.devRef .tc main_v11) = Cert.Gcn.agg700 (h1 m c) (m ((c : Thread nD τ).loc main_arg9)) (m ((c : Thread nD τ).loc main_arg10)) :=
  (Stretch.res1 (W2 m ρ c)).trans (congr3 Cert.Gcn.agg700 (out0 m ρ c) (src2 m ρ c) (dst2 m ρ c))
theorem pos1 : W4 m ρ c (Proc.devRef .tc main_v12) = x1 m c :=
  (Stretch.res1_1 (W3 m ρ c)).trans (congrArg Cert.Gcn.pos700 (agg1 m ρ c))
theorem in1_x : W5 m ρ c (Proc.devRef .tc main_v12) = x1 m c := (Stretch.keep1_2 (W4 m ρ c) main_v12 (by decide)).trans (pos1 m ρ c)
theorem in1_w : W5 m ρ c (Proc.devRef .tc main_arg3) = (m ((c : Thread nD τ).loc main_arg3)) := (Stretch.keep1_2 (W4 m ρ c) main_arg3 (by decide)).trans ((Stretch.keep1_1 (W3 m ρ c) main_arg3 (by decide)).trans ((Stretch.keep1 (W2 m ρ c) main_arg3 (by decide)).trans ((W2_of_ne m ρ c main_arg3 (by decide)).trans ((Stretch.keep0 (W0 m ρ c) main_arg3 (by decide)).trans (rfl)))))
theorem bias4 : W4 m ρ c (Proc.devRef .tc main_arg4) = (m ((c : Thread nD τ).loc main_arg4)) := (Stretch.keep1_1 (W3 m ρ c) main_arg4 (by decide)).trans ((Stretch.keep1 (W2 m ρ c) main_arg4 (by decide)).trans ((W2_of_ne m ρ c main_arg4 (by decide)).trans ((Stretch.keep0 (W0 m ρ c) main_arg4 (by decide)).trans (rfl))))
theorem in1_b : W5 m ρ c (Proc.devRef .tc main_v13) = shapeCast S1x400 (m ((c : Thread nD τ).loc main_arg4)) shapeCasts_S400_S1x400 :=
  (Stretch.res1_2 (W4 m ρ c)).trans (congrArg (fun b => shapeCast S1x400 b shapeCasts_S400_S1x400) (bias4 m ρ c))

theorem out1 : W6 m ρ c (Proc.devRef .tc main_v14) = h2 m c :=
  (W6_arr m ρ c 3).trans <| (Region.final1 (V5 m ρ) c).trans <|
    (congr3 (Cert.Gcn.dense (M := 50000) (K := 700) (N := 400)) (in1_x m ρ c) (in1_w m ρ c) (in1_b m ρ c)).trans
      (Cert.ReferenceIdeal.Dense.lin1_eq (x1 m c) (m ((c : Thread nD τ).loc main_arg3)) (m ((c : Thread nD τ).loc main_arg4)) _ (fun q => Pay.bias_row _ _ q)).symm

/-! ## The stretch after it, and region 2: the third dense layer -/

theorem src6 : W6 m ρ c (Proc.devRef .tc main_arg9) = (m ((c : Thread nD τ).loc main_arg9)) := (W6_of_ne m ρ c main_arg9 (by decide)).trans ((Stretch.keep1_2 (W4 m ρ c) main_arg9 (by decide)).trans ((Stretch.keep1_1 (W3 m ρ c) main_arg9 (by decide)).trans ((Stretch.keep1 (W2 m ρ c) main_arg9 (by decide)).trans ((W2_of_ne m ρ c main_arg9 (by decide)).trans ((Stretch.keep0 (W0 m ρ c) main_arg9 (by decide)).trans (rfl))))))
theorem dst6 : W6 m ρ c (Proc.devRef .tc main_arg10) = (m ((c : Thread nD τ).loc main_arg10)) := (W6_of_ne m ρ c main_arg10 (by decide)).trans ((Stretch.keep1_2 (W4 m ρ c) main_arg10 (by decide)).trans ((Stretch.keep1_1 (W3 m ρ c) main_arg10 (by decide)).trans ((Stretch.keep1 (W2 m ρ c) main_arg10 (by decide)).trans ((W2_of_ne m ρ c main_arg10 (by decide)).trans ((Stretch.keep0 (W0 m ρ c) main_arg10 (by decide)).trans (rfl))))))
theorem agg2 : W7 m ρ c (Proc.devRef .tc main_v24) = Cert.Gcn.agg400 (h2 m c) (m ((c : Thread nD τ).loc main_arg9)) (m ((c : Thread nD τ).loc main_arg10)) :=
  (Stretch.res2 (W6 m ρ c)).trans (congr3 Cert.Gcn.agg400 (out1 m ρ c) (src6 m ρ c) (dst6 m ρ c))
theorem pos2 : W8 m ρ c (Proc.devRef .tc main_v25) = x2 m c :=
  (Stretch.res2_1 (W7 m ρ c)).trans (congrArg Cert.Gcn.pos400 (agg2 m ρ c))
theorem in2_x : W9 m ρ c (Proc.devRef .tc main_v25) = x2 m c := (Stretch.keep2_2 (W8 m ρ c) main_v25 (by decide)).trans (pos2 m ρ c)
theorem in2_w : W9 m ρ c (Proc.devRef .tc main_arg5) = (m ((c : Thread nD τ).loc main_arg5)) := (Stretch.keep2_2 (W8 m ρ c) main_arg5 (by decide)).trans ((Stretch.keep2_1 (W7 m ρ c) main_arg5 (by decide)).trans ((Stretch.keep2 (W6 m ρ c) main_arg5 (by decide)).trans ((W6_of_ne m ρ c main_arg5 (by decide)).trans ((Stretch.keep1_2 (W4 m ρ c) main_arg5 (by decide)).trans ((Stretch.keep1_1 (W3 m ρ c) main_arg5 (by decide)).trans ((Stretch.keep1 (W2 m ρ c) main_arg5 (by decide)).trans ((W2_of_ne m ρ c main_arg5 (by decide)).trans ((Stretch.keep0 (W0 m ρ c) main_arg5 (by decide)).trans (rfl)))))))))
theorem bias6 : W8 m ρ c (Proc.devRef .tc main_arg6) = (m ((c : Thread nD τ).loc main_arg6)) := (Stretch.keep2_1 (W7 m ρ c) main_arg6 (by decide)).trans ((Stretch.keep2 (W6 m ρ c) main_arg6 (by decide)).trans ((W6_of_ne m ρ c main_arg6 (by decide)).trans ((Stretch.keep1_2 (W4 m ρ c) main_arg6 (by decide)).trans ((Stretch.keep1_1 (W3 m ρ c) main_arg6 (by decide)).trans ((Stretch.keep1 (W2 m ρ c) main_arg6 (by decide)).trans ((W2_of_ne m ρ c main_arg6 (by decide)).trans ((Stretch.keep0 (W0 m ρ c) main_arg6 (by decide)).trans (rfl))))))))
theorem in2_b : W9 m ρ c (Proc.devRef .tc main_v26) = shapeCast S1x100 (m ((c : Thread nD τ).loc main_arg6)) shapeCasts_S100_S1x100 :=
  (Stretch.res2_2 (W8 m ρ c)).trans (congrArg (fun b => shapeCast S1x100 b shapeCasts_S100_S1x100) (bias6 m ρ c))

theorem out2 : W10 m ρ c (Proc.devRef .tc main_v27) = h3 m c :=
  (W10_arr m ρ c 3).trans <| (Region.final2 (V9 m ρ) c).trans <|
    (congr3 (Cert.Gcn.dense (M := 50000) (K := 400) (N := 100)) (in2_x m ρ c) (in2_w m ρ c) (in2_b m ρ c)).trans
      (Cert.ReferenceIdeal.Dense.lin2_eq (x2 m c) (m ((c : Thread nD τ).loc main_arg5)) (m ((c : Thread nD τ).loc main_arg6)) _ (fun q => Pay.bias_row _ _ q)).symm

/-! ## The last stretch, and region 3: the last dense layer and its positive part -/

theorem src10 : W10 m ρ c (Proc.devRef .tc main_arg9) = (m ((c : Thread nD τ).loc main_arg9)) := (W10_of_ne m ρ c main_arg9 (by decide)).trans ((Stretch.keep2_2 (W8 m ρ c) main_arg9 (by decide)).trans ((Stretch.keep2_1 (W7 m ρ c) main_arg9 (by decide)).trans ((Stretch.keep2 (W6 m ρ c) main_arg9 (by decide)).trans ((W6_of_ne m ρ c main_arg9 (by decide)).trans ((Stretch.keep1_2 (W4 m ρ c) main_arg9 (by decide)).trans ((Stretch.keep1_1 (W3 m ρ c) main_arg9 (by decide)).trans ((Stretch.keep1 (W2 m ρ c) main_arg9 (by decide)).trans ((W2_of_ne m ρ c main_arg9 (by decide)).trans ((Stretch.keep0 (W0 m ρ c) main_arg9 (by decide)).trans (rfl))))))))))
theorem dst10 : W10 m ρ c (Proc.devRef .tc main_arg10) = (m ((c : Thread nD τ).loc main_arg10)) := (W10_of_ne m ρ c main_arg10 (by decide)).trans ((Stretch.keep2_2 (W8 m ρ c) main_arg10 (by decide)).trans ((Stretch.keep2_1 (W7 m ρ c) main_arg10 (by decide)).trans ((Stretch.keep2 (W6 m ρ c) main_arg10 (by decide)).trans ((W6_of_ne m ρ c main_arg10 (by decide)).trans ((Stretch.keep1_2 (W4 m ρ c) main_arg10 (by decide)).trans ((Stretch.keep1_1 (W3 m ρ c) main_arg10 (by decide)).trans ((Stretch.keep1 (W2 m ρ c) main_arg10 (by decide)).trans ((W2_of_ne m ρ c main_arg10 (by decide)).trans ((Stretch.keep0 (W0 m ρ c) main_arg10 (by decide)).trans (rfl))))))))))
theorem in3_x : W11 m ρ c (Proc.devRef .tc main_v37) = g3 m c :=
  (Stretch.res3_agg (W10 m ρ c)).trans (congr3 Cert.Gcn.agg100 (out2 m ρ c) (src10 m ρ c) (dst10 m ρ c))
theorem in3_w : W11 m ρ c (Proc.devRef .tc main_arg7) = (m ((c : Thread nD τ).loc main_arg7)) := (Stretch.keep3 (W10 m ρ c) main_arg7 (by decide)).trans ((W10_of_ne m ρ c main_arg7 (by decide)).trans ((Stretch.keep2_2 (W8 m ρ c) main_arg7 (by decide)).trans ((Stretch.keep2_1 (W7 m ρ c) main_arg7 (by decide)).trans ((Stretch.keep2 (W6 m ρ c) main_arg7 (by decide)).trans ((W6_of_ne m ρ c main_arg7 (by decide)).trans ((Stretch.keep1_2 (W4 m ρ c) main_arg7 (by decide)).trans ((Stretch.keep1_1 (W3 m ρ c) main_arg7 (by decide)).trans ((Stretch.keep1 (W2 m ρ c) main_arg7 (by decide)).trans ((W2_of_ne m ρ c main_arg7 (by decide)).trans ((Stretch.keep0 (W0 m ρ c) main_arg7 (by decide)).trans (rfl)))))))))))
theorem bias8 : W10 m ρ c (Proc.devRef .tc main_arg8) = (m ((c : Thread nD τ).loc main_arg8)) := (W10_of_ne m ρ c main_arg8 (by decide)).trans ((Stretch.keep2_2 (W8 m ρ c) main_arg8 (by decide)).trans ((Stretch.keep2_1 (W7 m ρ c) main_arg8 (by decide)).trans ((Stretch.keep2 (W6 m ρ c) main_arg8 (by decide)).trans ((W6_of_ne m ρ c main_arg8 (by decide)).trans ((Stretch.keep1_2 (W4 m ρ c) main_arg8 (by decide)).trans ((Stretch.keep1_1 (W3 m ρ c) main_arg8 (by decide)).trans ((Stretch.keep1 (W2 m ρ c) main_arg8 (by decide)).trans ((W2_of_ne m ρ c main_arg8 (by decide)).trans ((Stretch.keep0 (W0 m ρ c) main_arg8 (by decide)).trans (rfl))))))))))
theorem in3_b : W11 m ρ c (Proc.devRef .tc main_v38) = shapeCast S1x16 (m ((c : Thread nD τ).loc main_arg8)) shapeCasts_S16_S1x16 :=
  (Stretch.res3_bias (W10 m ρ c)).trans (congrArg (fun b => shapeCast S1x16 b shapeCasts_S16_S1x16) (bias8 m ρ c))

/-- The result table holds the network's value of the launch contents of the arguments. -/
theorem kernel_value : W12 m ρ c (Proc.devRef .tc main_v39)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr m ρ c 3).trans <| (Region.final3 (V11 m ρ) c).trans <|
    (congr3 (Cert.Gcn.denseMax (M := 50000) (K := 100) (N := 16) (Ideal.ofBits .f32 0x00000000#32)) (in3_x m ρ c) (in3_w m ρ c) (in3_b m ρ c)).trans
      (Cert.ReferenceIdeal.Dense.lin3_relu_eq (g3 m c) (m ((c : Thread nD τ).loc main_arg7)) (m ((c : Thread nD τ).loc main_arg8)) _ (fun q => Pay.bias_row _ _ q)).symm

/-! ## The run -/

/-- Every weakly fair execution of the idealized kernel program terminates without a fault, its result table at the
    network's value of the arguments as launched and the arguments unchanged. -/
theorem run : θ_run (defs (F := Ideal)) (onTc (τ := τ) (main (F := Ideal))) ⟨m, fun _ => 0, ρ⟩ (fun r => ∀ c : Dev nD,
      r.2.mem ((c.tc : Thread nD τ).loc main_v39)
        = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨(h c).1.trans (kernel_value m ρ c), (h c).2⟩)
    (Cert.KernelIdeal.Named.run_named (F := Ideal) m ρ)

end Cert.KernelIdeal.Fold

end
-- ==== Proof.RefRun.lean ====
/-
  The idealized reference program's run, with its result stated as the network's value: the program is a straight
  line of host operations, so every weakly fair execution terminates with the result table at the operations' composed
  term of the arguments as launched, and that term, read operation by operation, is the network — four dense layers,
  three aggregations over the graph's edges, three positive parts — of the eleven arguments. The arguments end as
  launched.
-/
import proofs.«171094_j31095563223209_1_alg».proof.Proof.Net
import proofs.«171094_j31095563223209_1_alg».proof.Proof.Gen.ReferenceIdeal.Run

noncomputable section

namespace Cert.ReferenceIdeal.RefRun

open Idealize.ShloMosaic Idealize.ShloMosaic.TcCoe Idealize.SL.Sem Cert.ReferenceIdeal Cert.ReferenceIdeal.Gen

/-- Every weakly fair execution of the idealized reference terminates without a fault, its result table at the network's
    value of the arguments as launched and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48)
        = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => h c) (Cert.ReferenceIdeal.Value.run (F := Ideal) m ρ)

end Cert.ReferenceIdeal.RefRun

end
-- ==== Proof.lean ====
/-
  The certificate of a four-layer graph network (node features [50000, 1433]; layer widths 700, 400, 100, 16; 200000
  edges given as a list of sources and a list of destinations): a kernel program whose four dense layers are pipelined
  regions, each tiling the 50000 nodes into fifty blocks of 1000 rows and multiplying a block by the whole weight table
  (operands narrowed to bf16, products accumulated in f32) before adding the bias row, against a reference that computes
  each dense layer as one whole product. Between the dense layers both programs run the same host operations: gather
  the rows at the edges' sources, add them up at the edges' destinations, take the positive part.

  On the extended reals a change of float format is the identity and a product of tables is the plain sum of products,
  so entry (p, q) of a dense layer is the sum over k of x[p, k] · w[k, q] plus b[q] on both sides — the kernel's fifty
  row blocks assemble to exactly the table the reference computes at once, and no law beyond reading the two sums at
  an index is needed (in particular nothing depends on the inputs being finite). The host operations between the
  layers are carried as whole functions of equal operands and never opened.

  Modules: Spec (the dense layer as a table), Pay (the kernel bodies' payloads at an entry), Region0–3 (each region's
  blocks assembled into its output table), RefDense (the reference's dense layer is the same table), Net (the network
  in the reference's operations), Stretch (the host stretches between the regions, from any contents), KRun (the
  kernel program's run with its result named), Fold (the result read back through the program's segments), RefRun
  (the reference's run at the network's value). The three frames, the idealization's empty ledger and the equality
  of the two results are assembled here behind the witnesses of the programs' stated facts.
-/
import proofs.«171094_j31095563223209_1_alg».proof.Defs
import proofs.«171094_j31095563223209_1_alg».proof.Proof.Gen.Kernel
import proofs.«171094_j31095563223209_1_alg».proof.Proof.Gen.Kernel.Skeleton
import proofs.«171094_j31095563223209_1_alg».proof.Proof.Gen.Kernel.Launch
import proofs.«171094_j31095563223209_1_alg».proof.Proof.Gen.Kernel.Points
import proofs.«171094_j31095563223209_1_alg».proof.Proof.Gen.Kernel.Frame
import proofs.«171094_j31095563223209_1_alg».proof.Proof.Gen.KernelIdeal
import proofs.«171094_j31095563223209_1_alg».proof.Proof.Gen.KernelIdeal.Skeleton
import proofs.«171094_j31095563223209_1_alg».proof.Proof.Gen.KernelIdeal.Launch
import proofs.«171094_j31095563223209_1_alg».proof.Proof.Gen.KernelIdeal.Points
import proofs.«171094_j31095563223209_1_alg».proof.Proof.Gen.KernelIdeal.Frame
import proofs.«171094_j31095563223209_1_alg».proof.Proof.Gen.ReferenceIdeal
import proofs.«171094_j31095563223209_1_alg».proof.Proof.Gen.ReferenceIdeal.Run
import proofs.«171094_j31095563223209_1_alg».proof.Proof.Gen.ReferenceIdeal.Read
import proofs.«171094_j31095563223209_1_alg».proof.Proof.Gen.Pre_finite_inputs
import proofs.«171094_j31095563223209_1_alg».proof.Proof.Fold
import proofs.«171094_j31095563223209_1_alg».proof.Proof.RefRun
import Idealize.ShloMosaic.Adequacy
import Idealize.ShloMosaic.Init

noncomputable section

namespace Cert.Proof

open Idealize.ShloMosaic Idealize.SL.Sem

/-- The kernel program, as printed, runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the program's own text read on the extended reals. -/
theorem preserves : Cert.preserves_Kernel_KernelIdeal := trivial

/-- From memories agreeing on the arguments both idealized programs end with the network's value of those arguments
    in their result tables — the kernel's four regions assembled block by block, the reference's operations read in
    order — hence with equal results. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Fold.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
